-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v17)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v17) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v40) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S65536x784 : Shape := ⟨2, ![65536, 784]⟩
abbrev S512x784 : Shape := ⟨2, ![512, 784]⟩
abbrev S512 : Shape := ⟨1, ![512]⟩
abbrev S512x512 : Shape := ⟨2, ![512, 512]⟩
abbrev S10x512 : Shape := ⟨2, ![10, 512]⟩
abbrev S10 : Shape := ⟨1, ![10]⟩
abbrev S_ : Shape := ⟨0, ![]⟩

class Facts : Prop where
  bcast_S_S65536x784 : S_.BroadcastsInDim S65536x784 (![] : Fin 0 → Fin S65536x784.rank)
  reducesTo_S65536x784_S_d0_1 : S65536x784.ReducesTo [0, 1] S_
  h_S_ : 0 < S_.numel
  bcast_S_S512x784 : S_.BroadcastsInDim S512x784 (![] : Fin 0 → Fin S512x784.rank)
  reducesTo_S512x784_S_d0_1 : S512x784.ReducesTo [0, 1] S_
  bcast_S_S512 : S_.BroadcastsInDim S512 (![] : Fin 0 → Fin S512.rank)
  reducesTo_S512_S_d0 : S512.ReducesTo [0] S_
  bcast_S_S512x512 : S_.BroadcastsInDim S512x512 (![] : Fin 0 → Fin S512x512.rank)
  reducesTo_S512x512_S_d0_1 : S512x512.ReducesTo [0, 1] S_
  bcast_S_S10x512 : S_.BroadcastsInDim S10x512 (![] : Fin 0 → Fin S10x512.rank)
  reducesTo_S10x512_S_d0_1 : S10x512.ReducesTo [0, 1] S_
  bcast_S_S10 : S_.BroadcastsInDim S10 (![] : Fin 0 → Fin S10.rank)
  reducesTo_S10_S_d0 : S10.ReducesTo [0] S_

variable [Facts]

def fn_part2 {F : FTy → Type} [FloatOps F] (main_arg7 : FVec F S10x512 .f32) (main_arg8 : FVec F S10 .f32) (main_v33 : IVec S_ 1) : IVec S_ 1 :=
  let main_v34 : FVec F S10x512 .f32 := Host.absf main_arg7
  let main_cst_12 : FVec F S_ .f32 := constant S_ .f32 0x7F800000#32
  let main_v35 : FVec F S10x512 .f32 := broadcastInDim S10x512 ![] bcast_S_S10x512 main_cst_12
  let main_v36 : IVec S10x512 1 := cmpf .olt main_v34 main_v35
  let main_c_13 : IVec S_ 1 := constantI S_ 1 1#1
  let main_v37 : IVec S_ 1 := (fun x v => Host.reduce IntOp.andi x v reducesTo_S10x512_S_d0_1 h_S_) main_v36 main_c_13
  let main_v38 : IVec S_ 1 := andi main_v33 main_v37
  let main_v39 : FVec F S10 .f32 := Host.absf main_arg8
  let main_cst_14 : FVec F S_ .f32 := constant S_ .f32 0x7F800000#32
  let main_v40 : FVec F S10 .f32 := broadcastInDim S10 ![] bcast_S_S10 main_cst_14
  let main_v41 : IVec S10 1 := cmpf .olt main_v39 main_v40
  let main_c_15 : IVec S_ 1 := constantI S_ 1 1#1
  let main_v42 : IVec S_ 1 := (fun x v => Host.reduce IntOp.andi x v reducesTo_S10_S_d0 h_S_) main_v41 main_c_15
  let main_v43 : IVec S_ 1 := andi main_v38 main_v42
  main_v43

def fn_part1 {F : FTy → Type} [FloatOps F] (main_arg4 : FVec F S512 .f32) (main_arg5 : FVec F S512x512 .f32) (main_arg6 : FVec F S512 .f32) (main_arg7 : FVec F S10x512 .f32) (main_arg8 : FVec F S10 .f32) (main_v13 : IVec S_ 1) (main_v16 : IVec S512x512 1) : IVec S_ 1 :=
  let main_c_5 : IVec S_ 1 := constantI S_ 1 1#1
  let main_v17 : IVec S_ 1 := (fun x v => Host.reduce IntOp.andi x v reducesTo_S512x512_S_d0_1 h_S_) main_v16 main_c_5
  let main_v18 : IVec S_ 1 := andi main_v13 main_v17
  let main_v19 : FVec F S512 .f32 := Host.absf main_arg4
  let main_cst_6 : FVec F S_ .f32 := constant S_ .f32 0x7F800000#32
  let main_v20 : FVec F S512 .f32 := broadcastInDim S512 ![] bcast_S_S512 main_cst_6
  let main_v21 : IVec S512 1 := cmpf .olt main_v19 main_v20
  let main_c_7 : IVec S_ 1 := constantI S_ 1 1#1
  let main_v22 : IVec S_ 1 := (fun x v => Host.reduce IntOp.andi x v reducesTo_S512_S_d0 h_S_) main_v21 main_c_7
  let main_v23 : IVec S_ 1 := andi main_v18 main_v22
  let main_v24 : FVec F S512x512 .f32 := Host.absf main_arg5
  let main_cst_8 : FVec F S_ .f32 := constant S_ .f32 0x7F800000#32
  let main_v25 : FVec F S512x512 .f32 := broadcastInDim S512x512 ![] bcast_S_S512x512 main_cst_8
  let main_v26 : IVec S512x512 1 := cmpf .olt main_v24 main_v25
  let main_c_9 : IVec S_ 1 := constantI S_ 1 1#1
  let main_v27 : IVec S_ 1 := (fun x v => Host.reduce IntOp.andi x v reducesTo_S512x512_S_d0_1 h_S_) main_v26 main_c_9
  let main_v28 : IVec S_ 1 := andi main_v23 main_v27
  let main_v29 : FVec F S512 .f32 := Host.absf main_arg6
  let main_cst_10 : FVec F S_ .f32 := constant S_ .f32 0x7F800000#32
  let main_v30 : FVec F S512 .f32 := broadcastInDim S512 ![] bcast_S_S512 main_cst_10
  let main_v31 : IVec S512 1 := cmpf .olt main_v29 main_v30
  let main_c_11 : IVec S_ 1 := constantI S_ 1 1#1
  let main_v32 : IVec S_ 1 := (fun x v => Host.reduce IntOp.andi x v reducesTo_S512_S_d0 h_S_) main_v31 main_c_11
  let main_v33 : IVec S_ 1 := andi main_v28 main_v32
  fn_part2 (F := F) main_arg7 main_arg8 main_v33

def fn {F : FTy → Type} [FloatOps F] (main_arg0 : FVec F S65536x784 .f32) (main_arg1 : FVec F S512x784 .f32) (main_arg2 : FVec F S512 .f32) (main_arg3 : FVec F S512x512 .f32) (main_arg4 : FVec F S512 .f32) (main_arg5 : FVec F S512x512 .f32) (main_arg6 : FVec F S512 .f32) (main_arg7 : FVec F S10x512 .f32) (main_arg8 : FVec F S10 .f32) : IVec S_ 1 :=
  let main_v0 : FVec F S65536x784 .f32 := Host.absf main_arg0
  let main_cst : FVec F S_ .f32 := constant S_ .f32 0x7F800000#32
  let main_v1 : FVec F S65536x784 .f32 := broadcastInDim S65536x784 ![] bcast_S_S65536x784 main_cst
  let main_v2 : IVec S65536x784 1 := cmpf .olt main_v0 main_v1
  let main_c : IVec S_ 1 := constantI S_ 1 1#1
  let main_v3 : IVec S_ 1 := (fun x v => Host.reduce IntOp.andi x v reducesTo_S65536x784_S_d0_1 h_S_) main_v2 main_c
  let main_v4 : FVec F S512x784 .f32 := Host.absf main_arg1
  let main_cst_0 : FVec F S_ .f32 := constant S_ .f32 0x7F800000#32
  let main_v5 : FVec F S512x784 .f32 := broadcastInDim S512x784 ![] bcast_S_S512x784 main_cst_0
  let main_v6 : IVec S512x784 1 := cmpf .olt main_v4 main_v5
  let main_c_1 : IVec S_ 1 := constantI S_ 1 1#1
  let main_v7 : IVec S_ 1 := (fun x v => Host.reduce IntOp.andi x v reducesTo_S512x784_S_d0_1 h_S_) main_v6 main_c_1
  let main_v8 : IVec S_ 1 := andi main_v3 main_v7
  let main_v9 : FVec F S512 .f32 := Host.absf main_arg2
  let main_cst_2 : FVec F S_ .f32 := constant S_ .f32 0x7F800000#32
  let main_v10 : FVec F S512 .f32 := broadcastInDim S512 ![] bcast_S_S512 main_cst_2
  let main_v11 : IVec S512 1 := cmpf .olt main_v9 main_v10
  let main_c_3 : IVec S_ 1 := constantI S_ 1 1#1
  let main_v12 : IVec S_ 1 := (fun x v => Host.reduce IntOp.andi x v reducesTo_S512_S_d0 h_S_) main_v11 main_c_3
  let main_v13 : IVec S_ 1 := andi main_v8 main_v12
  let main_v14 : FVec F S512x512 .f32 := Host.absf main_arg3
  let main_cst_4 : FVec F S_ .f32 := constant S_ .f32 0x7F800000#32
  let main_v15 : FVec F S512x512 .f32 := broadcastInDim S512x512 ![] bcast_S_S512x512 main_cst_4
  let main_v16 : IVec S512x512 1 := cmpf .olt main_v14 main_v15
  fn_part1 (F := F) main_arg4 main_arg5 main_arg6 main_arg7 main_arg8 main_v13 main_v16
-- ==== Kernel.lean ====
abbrev S65536x784 : Shape := ⟨2, ![65536, 784]⟩
abbrev S512x784 : Shape := ⟨2, ![512, 784]⟩
abbrev S512 : Shape := ⟨1, ![512]⟩
abbrev S512x512 : Shape := ⟨2, ![512, 512]⟩
abbrev S10x512 : Shape := ⟨2, ![10, 512]⟩
abbrev S10 : Shape := ⟨1, ![10]⟩
abbrev S_ : Shape := ⟨0, ![]⟩
abbrev S1x512 : Shape := ⟨2, ![1, 512]⟩
abbrev S1x10 : Shape := ⟨2, ![1, 10]⟩
abbrev S65536x10 : Shape := ⟨2, ![65536, 10]⟩
abbrev S2048x784 : Shape := ⟨2, ![2048, 784]⟩
abbrev S2048x10 : Shape := ⟨2, ![2048, 10]⟩
abbrev S2048x512 : Shape := ⟨2, ![2048, 512]⟩

abbrev nBuf : Space → Nat
  | .hbm => 42
  | .vmem => 12
  | .smem => 0
  | _ => 0

abbrev bufTy : (tb : Table) → Fin (tcTables nBuf tb) → BufTy
  | .hbm, ⟨0, _⟩ => ⟨S65536x784, .f32⟩
  | .hbm, ⟨1, _⟩ => ⟨S512x784, .f32⟩
  | .hbm, ⟨2, _⟩ => ⟨S512, .f32⟩
  | .hbm, ⟨3, _⟩ => ⟨S512x512, .f32⟩
  | .hbm, ⟨4, _⟩ => ⟨S512, .f32⟩
  | .hbm, ⟨5, _⟩ => ⟨S512x512, .f32⟩
  | .hbm, ⟨6, _⟩ => ⟨S512, .f32⟩
  | .hbm, ⟨7, _⟩ => ⟨S10x512, .f32⟩
  | .hbm, ⟨8, _⟩ => ⟨S10, .f32⟩
  | .hbm, ⟨9, _⟩ => ⟨S_, .f32⟩
  | .hbm, ⟨10, _⟩ => ⟨S512x784, .f32⟩
  | .hbm, ⟨11, _⟩ => ⟨S512x784, .i1⟩
  | .hbm, ⟨12, _⟩ => ⟨S_, .f32⟩
  | .hbm, ⟨13, _⟩ => ⟨S_, .f32⟩
  | .hbm, ⟨14, _⟩ => ⟨S512x784, .f32⟩
  | .hbm, ⟨15, _⟩ => ⟨S512x784, .f32⟩
  | .hbm, ⟨16, _⟩ => ⟨S512x784, .f32⟩
  | .hbm, ⟨17, _⟩ => ⟨S512x784, .bf16⟩
  | .hbm, ⟨18, _⟩ => ⟨S_, .f32⟩
  | .hbm, ⟨19, _⟩ => ⟨S512x512, .f32⟩
  | .hbm, ⟨20, _⟩ => ⟨S512x512, .i1⟩
  | .hbm, ⟨21, _⟩ => ⟨S_, .f32⟩
  | .hbm, ⟨22, _⟩ => ⟨S_, .f32⟩
  | .hbm, ⟨23, _⟩ => ⟨S512x512, .f32⟩
  | .hbm, ⟨24, _⟩ => ⟨S512x512, .f32⟩
  | .hbm, ⟨25, _⟩ => ⟨S512x512, .f32⟩
  | .hbm, ⟨26, _⟩ => ⟨S512x512, .bf16⟩
  | .hbm, ⟨27, _⟩ => ⟨S_, .f32⟩
  | .hbm, ⟨28, _⟩ => ⟨S512x512, .f32⟩
  | .hbm, ⟨29, _⟩ => ⟨S512x512, .i1⟩
  | .hbm, ⟨30, _⟩ => ⟨S_, .f32⟩
  | .hbm, ⟨31, _⟩ => ⟨S_, .f32⟩
  | .hbm, ⟨32, _⟩ => ⟨S512x512, .f32⟩
  | .hbm, ⟨33, _⟩ => ⟨S512x512, .f32⟩
  | .hbm, ⟨34, _⟩ => ⟨S512x512, .f32⟩
  | .hbm, ⟨35, _⟩ => ⟨S512x512, .bf16⟩
  | .hbm, ⟨36, _⟩ => ⟨S10x512, .bf16⟩
  | .hbm, ⟨37, _⟩ => ⟨S1x512, .f32⟩
  | .hbm, ⟨38, _⟩ => ⟨S1x512, .f32⟩
  | .hbm, ⟨39, _⟩ => ⟨S1x512, .f32⟩
  | .hbm, ⟨40, _⟩ => ⟨S1x10, .f32⟩
  | .hbm, ⟨41, _⟩ => ⟨S65536x10, .f32⟩
  | .local _ .vmem, ⟨0, _⟩ => ⟨S2048x784, .f32⟩
  | .local _ .vmem, ⟨1, _⟩ => ⟨S2048x784, .f32⟩
  | .local _ .vmem, ⟨2, _⟩ => ⟨S512x784, .bf16⟩
  | .local _ .vmem, ⟨3, _⟩ => ⟨S1x512, .f32⟩
  | .local _ .vmem, ⟨4, _⟩ => ⟨S512x512, .bf16⟩
  | .local _ .vmem, ⟨5, _⟩ => ⟨S1x512, .f32⟩
  | .local _ .vmem, ⟨6, _⟩ => ⟨S512x512, .bf16⟩
  | .local _ .vmem, ⟨7, _⟩ => ⟨S1x512, .f32⟩
  | .local _ .vmem, ⟨8, _⟩ => ⟨S10x512, .bf16⟩
  | .local _ .vmem, ⟨9, _⟩ => ⟨S1x10, .f32⟩
  | .local _ .vmem, ⟨10, _⟩ => ⟨S2048x10, .f32⟩
  | .local _ .vmem, ⟨11, _⟩ => ⟨S2048x10, .f32⟩
  | _, _ => ⟨S65536x784, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_v1 : Ref sig .tc := ⟨.hbm, 11, rfl⟩
abbrev main_cst_0 : Ref sig .tc := ⟨.hbm, 12, rfl⟩
abbrev main_cst_1 : Ref sig .tc := ⟨.hbm, 13, rfl⟩
abbrev main_call0_v0 : Ref sig .tc := ⟨.hbm, 14, rfl⟩
abbrev main_call0_v1 : Ref sig .tc := ⟨.hbm, 15, rfl⟩
abbrev main_v2 : Ref sig .tc := ⟨.hbm, 16, rfl⟩
abbrev main_v3 : Ref sig .tc := ⟨.hbm, 17, rfl⟩
abbrev main_cst_2 : Ref sig .tc := ⟨.hbm, 18, rfl⟩
abbrev main_v4 : Ref sig .tc := ⟨.hbm, 19, rfl⟩
abbrev main_v5 : Ref sig .tc := ⟨.hbm, 20, rfl⟩
abbrev main_cst_3 : Ref sig .tc := ⟨.hbm, 21, rfl⟩
abbrev main_cst_4 : Ref sig .tc := ⟨.hbm, 22, rfl⟩
abbrev main_call1_v0 : Ref sig .tc := ⟨.hbm, 23, rfl⟩
abbrev main_call1_v1 : Ref sig .tc := ⟨.hbm, 24, rfl⟩
abbrev main_v6 : Ref sig .tc := ⟨.hbm, 25, rfl⟩
abbrev main_v7 : Ref sig .tc := ⟨.hbm, 26, rfl⟩
abbrev main_cst_5 : Ref sig .tc := ⟨.hbm, 27, rfl⟩
abbrev main_v8 : Ref sig .tc := ⟨.hbm, 28, rfl⟩
abbrev main_v9 : Ref sig .tc := ⟨.hbm, 29, rfl⟩
abbrev main_cst_6 : Ref sig .tc := ⟨.hbm, 30, rfl⟩
abbrev main_cst_7 : Ref sig .tc := ⟨.hbm, 31, rfl⟩
abbrev main_call2_v0 : Ref sig .tc := ⟨.hbm, 32, rfl⟩
abbrev main_call2_v1 : Ref sig .tc := ⟨.hbm, 33, rfl⟩
abbrev main_v10 : Ref sig .tc := ⟨.hbm, 34, rfl⟩
abbrev main_v11 : Ref sig .tc := ⟨.hbm, 35, rfl⟩
abbrev main_v12 : Ref sig .tc := ⟨.hbm, 36, rfl⟩
abbrev main_v13 : Ref sig .tc := ⟨.hbm, 37, rfl⟩
abbrev main_v14 : Ref sig .tc := ⟨.hbm, 38, rfl⟩
abbrev main_v15 : Ref sig .tc := ⟨.hbm, 39, rfl⟩
abbrev main_v16 : Ref sig .tc := ⟨.hbm, 40, rfl⟩
abbrev main_v17 : Ref sig .tc := ⟨.hbm, 41, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg9_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem9_1 : DmaSem sig := 11

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x784 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x784 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S512x512 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S10x512 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x10 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S2048x10 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

class Facts₀ : Prop where
  bcast_S_S512x784 : S_.BroadcastsInDim S512x784 (![] : Fin 0 → Fin S512x784.rank)
  bitsLt_bf16_f32 : FTy.bits .bf16 < FTy.bits .f32
  bcast_S_S512x512 : S_.BroadcastsInDim S512x512 (![] : Fin 0 → Fin S512x512.rank)
  shapeCasts_S512_S1x512 : S512.ShapeCasts S1x512
  shapeCasts_S10_S1x10 : S10.ShapeCasts S1x10
  inb_S2048x784_S2048x784_0_0 : ∀ a, (![0, 0] : Fin 2 → Nat) a + S2048x784.size a ≤ S2048x784.size a
  h_S2048x784 : 0 < S2048x784.numel
  inb_S512x784_S512x784_0_0 : ∀ a, (![0, 0] : Fin 2 → Nat) a + S512x784.size a ≤ S512x784.size a
  h_S512x784 : 0 < S512x784.numel
  shapeCasts_S512x784_S512x784 : S512x784.ShapeCasts S512x784
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S2048x512 : S1x512.Broadcasts S2048x512
  inb_S512x512_S512x512_0_0 : ∀ a, (![0, 0] : Fin 2 → Nat) a + S512x512.size a ≤ S512x512.size a
  h_S512x512 : 0 < S512x512.numel
  shapeCasts_S512x512_S512x512 : S512x512.ShapeCasts S512x512
  inb_S10x512_S10x512_0_0 : ∀ a, (![0, 0] : Fin 2 → Nat) a + S10x512.size a ≤ S10x512.size a
  h_S10x512 : 0 < S10x512.numel
  shapeCasts_S10x512_S10x512 : S10x512.ShapeCasts S10x512
  inb_S1x10_S1x10_0_0 : ∀ a, (![0, 0] : Fin 2 → Nat) a + S1x10.size a ≤ S1x10.size a
  h_S1x10 : 0 < S1x10.numel
  shapeCasts_S1x10_S1x10 : S1x10.ShapeCasts S1x10
  broadcasts_S1x10_S2048x10 : S1x10.Broadcasts S2048x10
  inb_S2048x10_S2048x10_0_0 : ∀ a, (![0, 0] : Fin 2 → Nat) a + S2048x10.size a ≤ S2048x10.size a
  h_S2048x10 : 0 < S2048x10.numel
  dot_S2048x784_S512x784_S2048x512_1_1_0_0_n_n_wf : DotDims.WF S2048x784 S512x784 S2048x512 [1] [1] [0] [0] [] []
  dot_S2048x512_S512x512_S2048x512_1_1_0_0_n_n_wf : DotDims.WF S2048x512 S512x512 S2048x512 [1] [1] [0] [0] [] []
  dot_S2048x512_S10x512_S2048x10_1_1_0_0_n_n_wf : DotDims.WF S2048x512 S10x512 S2048x10 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x784.size a ≤ S65536x784.size a
  hwx0_0 : ∀ i : grid0.Coords, EltTy.bits .f32 = 32 ∨ (Rect.block (s := S65536x784) S2048x784.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x784.size a ≤ S512x784.size a
  hwx0_1 : ∀ i : grid0.Coords, EltTy.bits .bf16 = 32 ∨ (Rect.block (s := S512x784) S512x784.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x512.size a ≤ S1x512.size a
  hwx0_2 : ∀ i : grid0.Coords, EltTy.bits .f32 = 32 ∨ (Rect.block (s := S1x512) S1x512.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S512x512.size a ≤ S512x512.size a
  hwx0_3 : ∀ i : grid0.Coords, EltTy.bits .bf16 = 32 ∨ (Rect.block (s := S512x512) S512x512.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x512.size a ≤ S1x512.size a
  hwx0_4 : ∀ i : grid0.Coords, EltTy.bits .f32 = 32 ∨ (Rect.block (s := S1x512) S1x512.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S512x512.size a ≤ S512x512.size a
  hwx0_5 : ∀ i : grid0.Coords, EltTy.bits .bf16 = 32 ∨ (Rect.block (s := S512x512) S512x512.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x512.size a ≤ S1x512.size a
  hwx0_6 : ∀ i : grid0.Coords, EltTy.bits .f32 = 32 ∨ (Rect.block (s := S1x512) S1x512.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S10x512.size a ≤ S10x512.size a
  hwx0_7 : ∀ i : grid0.Coords, EltTy.bits .bf16 = 32 ∨ (Rect.block (s := S10x512) S10x512.size (cc0_transform_7 i) (hinb0_7 i)).WholeWords (EltTy.packing .bf16)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x10.size a ≤ S1x10.size a
  hwx0_8 : ∀ i : grid0.Coords, EltTy.bits .f32 = 32 ∨ (Rect.block (s := S1x10) S1x10.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S2048x10.size a ≤ S65536x10.size a
  hwx0_9 : ∀ i : grid0.Coords, EltTy.bits .f32 = 32 ∨ (Rect.block (s := S65536x10) S2048x10.size (cc0_transform_9 i) (hinb0_9 i)).WholeWords (EltTy.packing .f32)

variable [Facts₀]

def dot_S2048x784_S512x784_S2048x512_1_1_0_0_n_n : DotDims S2048x784 S512x784 S2048x512 where
  lhsContracting := [1]
  rhsContracting := [1]
  lhsNonContracting := [0]
  rhsNonContracting := [0]
  lhsBatch := []
  rhsBatch := []
  wf := dot_S2048x784_S512x784_S2048x512_1_1_0_0_n_n_wf
def dot_S2048x512_S512x512_S2048x512_1_1_0_0_n_n : DotDims S2048x512 S512x512 S2048x512 where
  lhsContracting := [1]
  rhsContracting := [1]
  lhsNonContracting := [0]
  rhsNonContracting := [0]
  lhsBatch := []
  rhsBatch := []
  wf := dot_S2048x512_S512x512_S2048x512_1_1_0_0_n_n_wf
def dot_S2048x512_S10x512_S2048x10_1_1_0_0_n_n : DotDims S2048x512 S10x512 S2048x10 where
  lhsContracting := [1]
  rhsContracting := [1]
  lhsNonContracting := [0]
  rhsNonContracting := [0]
  lhsBatch := []
  rhsBatch := []
  wf := dot_S2048x512_S10x512_S2048x10_1_1_0_0_n_n_wf

abbrev win0_0 : Pipeline.Window sig grid0 :=
  Pipeline.Window.ofSpec (Memref.whole main_arg0) S2048x784.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v3) S512x784.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v13) S1x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v7) S512x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v14) S1x512.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v11) S512x512.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v15) S1x512.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v12) S10x512.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v16) S1x10.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v17) S2048x10.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

class Facts : Prop extends Facts₀ where

variable [Facts]
-- ==== ReferenceIdeal.lean ====
abbrev S65536x784 : Shape := ⟨2, ![65536, 784]⟩
abbrev S512x784 : Shape := ⟨2, ![512, 784]⟩
abbrev S512 : Shape := ⟨1, ![512]⟩
abbrev S512x512 : Shape := ⟨2, ![512, 512]⟩
abbrev S10x512 : Shape := ⟨2, ![10, 512]⟩
abbrev S10 : Shape := ⟨1, ![10]⟩
abbrev S_ : Shape := ⟨0, ![]⟩
abbrev S784x512 : Shape := ⟨2, ![784, 512]⟩
abbrev S65536x512 : Shape := ⟨2, ![65536, 512]⟩
abbrev S1x512 : Shape := ⟨2, ![1, 512]⟩
abbrev S512x10 : Shape := ⟨2, ![512, 10]⟩
abbrev S65536x10 : Shape := ⟨2, ![65536, 10]⟩
abbrev S1x10 : Shape := ⟨2, ![1, 10]⟩

abbrev nBuf : Space → Nat
  | .hbm => 71
  | .vmem => 0
  | .smem => 0
  | _ => 0

abbrev bufTy : (tb : Table) → Fin (tcTables nBuf tb) → BufTy
  | .hbm, ⟨0, _⟩ => ⟨S65536x784, .f32⟩
  | .hbm, ⟨1, _⟩ => ⟨S512x784, .f32⟩
  | .hbm, ⟨2, _⟩ => ⟨S512, .f32⟩
  | .hbm, ⟨3, _⟩ => ⟨S512x512, .f32⟩
  | .hbm, ⟨4, _⟩ => ⟨S512, .f32⟩
  | .hbm, ⟨5, _⟩ => ⟨S512x512, .f32⟩
  | .hbm, ⟨6, _⟩ => ⟨S512, .f32⟩
  | .hbm, ⟨7, _⟩ => ⟨S10x512, .f32⟩
  | .hbm, ⟨8, _⟩ => ⟨S10, .f32⟩
  | .hbm, ⟨9, _⟩ => ⟨S_, .f32⟩
  | .hbm, ⟨10, _⟩ => ⟨S512x784, .f32⟩
  | .hbm, ⟨11, _⟩ => ⟨S512x784, .i1⟩
  | .hbm, ⟨12, _⟩ => ⟨S_, .f32⟩
  | .hbm, ⟨13, _⟩ => ⟨S_, .f32⟩
  | .hbm, ⟨14, _⟩ => ⟨S512x784, .f32⟩
  | .hbm, ⟨15, _⟩ => ⟨S512x784, .f32⟩
  | .hbm, ⟨16, _⟩ => ⟨S512x784, .f32⟩
  | .hbm, ⟨17, _⟩ => ⟨S512x784, .f32⟩
  | .hbm, ⟨18, _⟩ => ⟨S512x784, .f32⟩
  | .hbm, ⟨19, _⟩ => ⟨S512x784, .f32⟩
  | .hbm, ⟨20, _⟩ => ⟨S784x512, .f32⟩
  | .hbm, ⟨21, _⟩ => ⟨S65536x512, .f32⟩
  | .hbm, ⟨22, _⟩ => ⟨S1x512, .f32⟩
  | .hbm, ⟨23, _⟩ => ⟨S65536x512, .f32⟩
  | .hbm, ⟨24, _⟩ => ⟨S65536x512, .f32⟩
  | .hbm, ⟨25, _⟩ => ⟨S_, .f32⟩
  | .hbm, ⟨26, _⟩ => ⟨S65536x512, .f32⟩
  | .hbm, ⟨27, _⟩ => ⟨S65536x512, .f32⟩
  | .hbm, ⟨28, _⟩ => ⟨S_, .f32⟩
  | .hbm, ⟨29, _⟩ => ⟨S512x512, .f32⟩
  | .hbm, ⟨30, _⟩ => ⟨S512x512, .i1⟩
  | .hbm, ⟨31, _⟩ => ⟨S_, .f32⟩
  | .hbm, ⟨32, _⟩ => ⟨S_, .f32⟩
  | .hbm, ⟨33, _⟩ => ⟨S512x512, .f32⟩
  | .hbm, ⟨34, _⟩ => ⟨S512x512, .f32⟩
  | .hbm, ⟨35, _⟩ => ⟨S512x512, .f32⟩
  | .hbm, ⟨36, _⟩ => ⟨S512x512, .f32⟩
  | .hbm, ⟨37, _⟩ => ⟨S512x512, .f32⟩
  | .hbm, ⟨38, _⟩ => ⟨S512x512, .f32⟩
  | .hbm, ⟨39, _⟩ => ⟨S512x512, .f32⟩
  | .hbm, ⟨40, _⟩ => ⟨S65536x512, .f32⟩
  | .hbm, ⟨41, _⟩ => ⟨S1x512, .f32⟩
  | .hbm, ⟨42, _⟩ => ⟨S65536x512, .f32⟩
  | .hbm, ⟨43, _⟩ => ⟨S65536x512, .f32⟩
  | .hbm, ⟨44, _⟩ => ⟨S_, .f32⟩
  | .hbm, ⟨45, _⟩ => ⟨S65536x512, .f32⟩
  | .hbm, ⟨46, _⟩ => ⟨S65536x512, .f32⟩
  | .hbm, ⟨47, _⟩ => ⟨S_, .f32⟩
  | .hbm, ⟨48, _⟩ => ⟨S512x512, .f32⟩
  | .hbm, ⟨49, _⟩ => ⟨S512x512, .i1⟩
  | .hbm, ⟨50, _⟩ => ⟨S_, .f32⟩
  | .hbm, ⟨51, _⟩ => ⟨S_, .f32⟩
  | .hbm, ⟨52, _⟩ => ⟨S512x512, .f32⟩
  | .hbm, ⟨53, _⟩ => ⟨S512x512, .f32⟩
  | .hbm, ⟨54, _⟩ => ⟨S512x512, .f32⟩
  | .hbm, ⟨55, _⟩ => ⟨S512x512, .f32⟩
  | .hbm, ⟨56, _⟩ => ⟨S512x512, .f32⟩
  | .hbm, ⟨57, _⟩ => ⟨S512x512, .f32⟩
  | .hbm, ⟨58, _⟩ => ⟨S512x512, .f32⟩
  | .hbm, ⟨59, _⟩ => ⟨S65536x512, .f32⟩
  | .hbm, ⟨60, _⟩ => ⟨S1x512, .f32⟩
  | .hbm, ⟨61, _⟩ => ⟨S65536x512, .f32⟩
  | .hbm, ⟨62, _⟩ => ⟨S65536x512, .f32⟩
  | .hbm, ⟨63, _⟩ => ⟨S_, .f32⟩
  | .hbm, ⟨64, _⟩ => ⟨S65536x512, .f32⟩
  | .hbm, ⟨65, _⟩ => ⟨S65536x512, .f32⟩
  | .hbm, ⟨66, _⟩ => ⟨S512x10, .f32⟩
  | .hbm, ⟨67, _⟩ => ⟨S65536x10, .f32⟩
  | .hbm, ⟨68, _⟩ => ⟨S1x10, .f32⟩
  | .hbm, ⟨69, _⟩ => ⟨S65536x10, .f32⟩
  | .hbm, ⟨70, _⟩ => ⟨S65536x10, .f32⟩
  | _, _ => ⟨S65536x784, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_v1 : Ref sig .tc := ⟨.hbm, 11, rfl⟩
abbrev main_cst_0 : Ref sig .tc := ⟨.hbm, 12, rfl⟩
abbrev main_cst_1 : Ref sig .tc := ⟨.hbm, 13, rfl⟩
abbrev main_call0_v0 : Ref sig .tc := ⟨.hbm, 14, rfl⟩
abbrev main_call0_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_call1_cst : Ref sig .tc := ⟨.hbm, 25, rfl⟩
abbrev main_call1_v0 : Ref sig .tc := ⟨.hbm, 26, rfl⟩
abbrev main_v11 : Ref sig .tc := ⟨.hbm, 27, rfl⟩
abbrev main_cst_2 : Ref sig .tc := ⟨.hbm, 28, rfl⟩
abbrev main_v12 : Ref sig .tc := ⟨.hbm, 29, rfl⟩
abbrev main_v13 : Ref sig .tc := ⟨.hbm, 30, rfl⟩
abbrev main_cst_3 : Ref sig .tc := ⟨.hbm, 31, rfl⟩
abbrev main_cst_4 : Ref sig .tc := ⟨.hbm, 32, rfl⟩
abbrev main_call2_v0 : Ref sig .tc := ⟨.hbm, 33, rfl⟩
abbrev main_call2_v1 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_call3_cst : Ref sig .tc := ⟨.hbm, 44, rfl⟩
abbrev main_call3_v0 : Ref sig .tc := ⟨.hbm, 45, rfl⟩
abbrev main_v23 : Ref sig .tc := ⟨.hbm, 46, rfl⟩
abbrev main_cst_5 : Ref sig .tc := ⟨.hbm, 47, rfl⟩
abbrev main_v24 : Ref sig .tc := ⟨.hbm, 48, rfl⟩
abbrev main_v25 : Ref sig .tc := ⟨.hbm, 49, rfl⟩
abbrev main_cst_6 : Ref sig .tc := ⟨.hbm, 50, rfl⟩
abbrev main_cst_7 : Ref sig .tc := ⟨.hbm, 51, rfl⟩
abbrev main_call4_v0 : Ref sig .tc := ⟨.hbm, 52, rfl⟩
abbrev main_call4_v1 : Ref sig .tc := ⟨.hbm, 53, rfl⟩
abbrev main_v26 : Ref sig .tc := ⟨.hbm, 54, rfl⟩
abbrev main_v27 : Ref sig .tc := ⟨.hbm, 55, rfl⟩
abbrev main_v28 : Ref sig .tc := ⟨.hbm, 56, rfl⟩
abbrev main_v29 : Ref sig .tc := ⟨.hbm, 57, rfl⟩
abbrev main_v30 : Ref sig .tc := ⟨.hbm, 58, rfl⟩
abbrev main_v31 : Ref sig .tc := ⟨.hbm, 59, rfl⟩
abbrev main_v32 : Ref sig .tc := ⟨.hbm, 60, rfl⟩
abbrev main_v33 : Ref sig .tc := ⟨.hbm, 61, rfl⟩
abbrev main_v34 : Ref sig .tc := ⟨.hbm, 62, rfl⟩
abbrev main_call5_cst : Ref sig .tc := ⟨.hbm, 63, rfl⟩
abbrev main_call5_v0 : Ref sig .tc := ⟨.hbm, 64, rfl⟩
abbrev main_v35 : Ref sig .tc := ⟨.hbm, 65, rfl⟩
abbrev main_v36 : Ref sig .tc := ⟨.hbm, 66, rfl⟩
abbrev main_v37 : Ref sig .tc := ⟨.hbm, 67, rfl⟩
abbrev main_v38 : Ref sig .tc := ⟨.hbm, 68, rfl⟩
abbrev main_v39 : Ref sig .tc := ⟨.hbm, 69, rfl⟩
abbrev main_v40 : Ref sig .tc := ⟨.hbm, 70, rfl⟩

abbrev nD : Nat := 1
abbrev τ : Topo := Topo.v7x

variable {F : FTy → Type} [FloatOps F]

class Facts₀ : Prop where
  bcast_S_S512x784 : S_.BroadcastsInDim S512x784 (![] : Fin 0 → Fin S512x784.rank)
  transposes_S512x784_S784x512_1_0 : S512x784.Transposes [1, 0] S784x512
  bcast_S512_S1x512_1 : S512.BroadcastsInDim S1x512 (![1] : Fin 1 → Fin S1x512.rank)
  bcast_S1x512_S65536x512_0_1 : S1x512.BroadcastsInDim S65536x512 (![0, 1] : Fin 2 → Fin S65536x512.rank)
  bcast_S_S65536x512 : S_.BroadcastsInDim S65536x512 (![] : Fin 0 → Fin S65536x512.rank)
  bcast_S_S512x512 : S_.BroadcastsInDim S512x512 (![] : Fin 0 → Fin S512x512.rank)
  transposes_S512x512_S512x512_1_0 : S512x512.Transposes [1, 0] S512x512
  transposes_S10x512_S512x10_1_0 : S10x512.Transposes [1, 0] S512x10
  bcast_S10_S1x10_1 : S10.BroadcastsInDim S1x10 (![1] : Fin 1 → Fin S1x10.rank)
  bcast_S1x10_S65536x10_0_1 : S1x10.BroadcastsInDim S65536x10 (![0, 1] : Fin 2 → Fin S65536x10.rank)
  dot_S65536x784_S784x512_S65536x512_1_0_0_1_n_n_wf : DotDims.WF S65536x784 S784x512 S65536x512 [1] [0] [0] [1] [] []
  dot_S65536x512_S512x512_S65536x512_1_0_0_1_n_n_wf : DotDims.WF S65536x512 S512x512 S65536x512 [1] [0] [0] [1] [] []
  dot_S65536x512_S512x10_S65536x10_1_0_0_1_n_n_wf : DotDims.WF S65536x512 S512x10 S65536x10 [1] [0] [0] [1] [] []

variable [Facts₀]

def dot_S65536x784_S784x512_S65536x512_1_0_0_1_n_n : DotDims S65536x784 S784x512 S65536x512 where
  lhsContracting := [1]
  rhsContracting := [0]
  lhsNonContracting := [0]
  rhsNonContracting := [1]
  lhsBatch := []
  rhsBatch := []
  wf := dot_S65536x784_S784x512_S65536x512_1_0_0_1_n_n_wf
def dot_S65536x512_S512x512_S65536x512_1_0_0_1_n_n : DotDims S65536x512 S512x512 S65536x512 where
  lhsContracting := [1]
  rhsContracting := [0]
  lhsNonContracting := [0]
  rhsNonContracting := [1]
  lhsBatch := []
  rhsBatch := []
  wf := dot_S65536x512_S512x512_S65536x512_1_0_0_1_n_n_wf
def dot_S65536x512_S512x10_S65536x10_1_0_0_1_n_n : DotDims S65536x512 S512x10 S65536x10 where
  lhsContracting := [1]
  rhsContracting := [0]
  lhsNonContracting := [0]
  rhsNonContracting := [1]
  lhsBatch := []
  rhsBatch := []
  wf := dot_S65536x512_S512x10_S65536x10_1_0_0_1_n_n_wf

class Facts : Prop extends Facts₀ where

variable [Facts]
-- ==== Proof.LibMatmulNT.lean ====
/-
  A matrix product of an M × K matrix by an N × K matrix contracted on the LAST axis of both operands (the right
  operand taken transposed) into a zero accumulator, read at one entry on the extended reals: entry (i, j) is
  Σ_k lhs (i, k) · rhs (j, k). No rounding and no order of accumulation is left in it.
-/
import Idealize.ShloMosaic.PureOps.Ideal.Laws
import Idealize.ShloMosaic.Lib.ValueIdx

noncomputable section

namespace Cert.MatmulNT

open Idealize.ShloMosaic Idealize.ShloMosaic.ValueIdx

/-- Entry (i, j) of the product of `lhs` (M × K) and the transpose of `rhs` (N × K) accumulated into zeros. -/
theorem matmul_zero_apply (M K N : Nat) {φ₁ φ₂ : FTy} (prec : Option ContractPrecision)
    (lhs : FVec Ideal ⟨2, ![M, K]⟩ φ₁) (rhs : FVec Ideal ⟨2, ![N, K]⟩ φ₂) (i : Fin M) (j : Fin N) :
    FloatOps.matmul (DotDims.transposedRhs M K N) prec lhs rhs (constant ⟨2, ![M, N]⟩ .f32 0x00000000#32) (ix2 i j)
      = ∑ k : Fin K, lhs (ix2 i k) * rhs (ix2 j k) := by
  rw [Ideal.matmul_constant_zero_apply, ← Equiv.sum_comp (contrEquiv1 (DotDims.transposedRhs M K N) K rfl rfl).symm]
  refine Finset.sum_congr rfl fun k _ => ?_
  have hk := contrEquiv1_symm_val (DotDims.transposedRhs M K N) K rfl rfl k
  have el : (DotDims.transposedRhs M K N).lhsIdx (ix2 i j) ((contrEquiv1 (DotDims.transposedRhs M K N) K rfl rfl).symm k) = ix2 i k :=
    funext fun a => Fin.ext (by
      match a with
      | ⟨0, _⟩ => rfl
      | ⟨1, _⟩ => exact ((DotDims.transposedRhs M K N).lhsIdx_val_of_single rfl _ _).trans hk)
  have er : (DotDims.transposedRhs M K N).rhsIdx (ix2 i j) ((contrEquiv1 (DotDims.transposedRhs M K N) K rfl rfl).symm k) = ix2 j k :=
    funext fun a => Fin.ext (by
      match a with
      | ⟨0, _⟩ => rfl
      | ⟨1, _⟩ => exact ((DotDims.transposedRhs M K N).rhsIdx_val_of_single rfl _ _).trans hk)
  rw [el, er]

end Cert.MatmulNT

end
-- ==== Proof.LibHostReads.lean ====
/-
  Three host-side readings at an entry, over any sizes, on the extended reals.

  * A plain matrix product on the host (an M × K by a K × N `dot_general`, no batch axes): entry (i, j) is
    Σ_k lhs (i, k) · rhs (k, j).
  * One matrix picked out of a tensor [G, O, K, N] by slicing the first axis at g, dropping it, slicing the next at o
    and dropping it too: entry (k, n) of the result is the tensor at (g, o, k, n).
  * One row picked out of a table [G, N] at g, flattened, and broadcast down M rows: entry (i, n) of the result is
    the table at (g, n).
-/
import Idealize.ShloMosaic.PureOps.Ideal.Laws
import Idealize.ShloMosaic.Lib.Pipeline.Value
import Idealize.ShloMosaic.Lib.ValueIdx

noncomputable section

open scoped BigOperators

namespace Cert.LibHostReads

open Idealize.ShloMosaic Idealize.ShloMosaic.ValueIdx

/-- Entry (i, j) of the host's plain product of `lhs` (M × K) and `rhs` (K × N). -/
theorem dotGeneral_plain_apply (M K N : Nat) {φ₁ φ₂ : FTy} (prec : Option ContractPrecision)
    (lhs : FVec Ideal ⟨2, ![M, K]⟩ φ₁) (rhs : FVec Ideal ⟨2, ![K, N]⟩ φ₂) (i : Fin M) (j : Fin N) :
    Host.dotGeneral (F := Ideal) (DotDims.plain M K N) prec lhs rhs (ix2 i j) = ∑ k : Fin K, lhs (ix2 i k) * rhs (ix2 k j) := by
  simp only [Host.dotGeneral]
  rw [Ideal.dotGeneral_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 i j) ((contrEquiv1 (DotDims.plain M K N) K rfl rfl).symm k) = ix2 i k :=
    funext fun a => Fin.ext (by
      match a with
      | ⟨0, _⟩ => rfl
      | ⟨1, _⟩ => exact ((DotDims.plain M K N).lhsIdx_val_of_single rfl _ _).trans hk)
  have er : (DotDims.plain M K N).rhsIdx (ix2 i j) ((contrEquiv1 (DotDims.plain M K N) K rfl rfl).symm k) = ix2 k j :=
    funext fun a => Fin.ext (by
      match a with
      | ⟨0, _⟩ => exact ((DotDims.plain M K N).rhsIdx_val_of_single rfl _ _).trans hk
      | ⟨1, _⟩ => rfl)
  rw [el, er]

/-- One matrix of a [G, O, K, N] tensor, picked by two slice-and-drop steps, read at (k, n). -/
theorem select_matrix_apply {α : Type} {G O K N : Nat} (W : (⟨4, ![G, O, K, N]⟩ : Shape).Idx → α) (g : Fin G) (o : Fin O)
    (h1 : (⟨4, ![G, O, K, N]⟩ : Shape).Slices ![g.val, 0, 0, 0] ⟨4, ![1, O, K, N]⟩)
    (h2 : (⟨4, ![1, O, K, N]⟩ : Shape).ShapeCasts ⟨3, ![O, K, N]⟩)
    (h3 : (⟨3, ![O, K, N]⟩ : Shape).Slices ![o.val, 0, 0] ⟨3, ![1, K, N]⟩)
    (h4 : (⟨3, ![1, K, N]⟩ : Shape).ShapeCasts ⟨2, ![K, N]⟩) (k : Fin K) (n : Fin N) :
    shapeCast ⟨2, ![K, N]⟩ (extractStridedSlice ⟨3, ![1, K, N]⟩ ![o.val, 0, 0]
      (shapeCast ⟨3, ![O, K, N]⟩ (extractStridedSlice ⟨4, ![1, O, K, N]⟩ ![g.val, 0, 0, 0] W h1) h2) h3) h4 (ix2 k n)
      = W (ix4 g o k n) := by
  refine (shapeCast_apply _ h4 (ix2 k n) (ix3 (0 : Fin 1) k n) ?_).trans ?_
  · rewrite [Shape.rowMajor_val_three, Shape.rowMajor_val_two]
    show ((0 : Fin 1).val * K + k.val) * N + n.val = k.val * N + n.val
    simp
  refine (extractStridedSlice_apply ![o.val, 0, 0] _ h3 (ix3 (0 : Fin 1) k n) (ix3 o k n) ?_).trans ?_
  · intro a
    match a with
    | ⟨0, _⟩ => show o.val = o.val + (0 : Fin 1).val; simp
    | ⟨1, _⟩ => show k.val = 0 + k.val; omega
    | ⟨2, _⟩ => show n.val = 0 + n.val; omega
  refine (shapeCast_apply _ h2 (ix3 o k n) (ix4 (0 : Fin 1) o k n) ?_).trans ?_
  · rewrite [Shape.rowMajor_val_four, Shape.rowMajor_val_three]
    show (((0 : Fin 1).val * O + o.val) * K + k.val) * N + n.val = (o.val * K + k.val) * N + n.val
    simp
  refine extractStridedSlice_apply ![g.val, 0, 0, 0] W h1 (ix4 (0 : Fin 1) o k n) (ix4 g o k n) ?_
  intro a
  match a with
  | ⟨0, _⟩ => show g.val = g.val + (0 : Fin 1).val; simp
  | ⟨1, _⟩ => show o.val = 0 + o.val; omega
  | ⟨2, _⟩ => show k.val = 0 + k.val; omega
  | ⟨3, _⟩ => show n.val = 0 + n.val; omega

/-- One row of a [G, N] table picked at g, flattened and broadcast down M rows, read at (i, n). -/
theorem select_row_apply {α : Type} {G N M : Nat} (hN : N ≠ 1) (B : (⟨2, ![G, N]⟩ : Shape).Idx → α) (g : Fin G)
    (h1 : (⟨2, ![G, N]⟩ : Shape).Slices ![g.val, 0] ⟨2, ![1, N]⟩)
    (h2 : (⟨2, ![1, N]⟩ : Shape).ShapeCasts ⟨1, ![N]⟩)
    (h3 : (⟨1, ![N]⟩ : Shape).BroadcastsInDim ⟨2, ![1, N]⟩ ![1])
    (h4 : (⟨2, ![1, N]⟩ : Shape).BroadcastsInDim ⟨2, ![M, N]⟩ ![0, 1]) (i : Fin M) (n : Fin N) :
    broadcastInDim ⟨2, ![M, N]⟩ ![0, 1] h4 (broadcastInDim ⟨2, ![1, N]⟩ ![1] h3
      (shapeCast ⟨1, ![N]⟩ (extractStridedSlice ⟨2, ![1, N]⟩ ![g.val, 0] B h1) h2)) (ix2 i n) = B (ix2 g n) := by
  refine (broadcastInDim_apply _ h4 _ (ix2 i n) (ix2 (0 : Fin 1) n) ?_).trans ?_
  · intro a
    match a with
    | ⟨0, _⟩ => show (0 : Fin 1).val = if (1 : Nat) = 1 then 0 else i.val; rw [if_pos rfl]; rfl
    | ⟨1, _⟩ => show n.val = if N = 1 then 0 else n.val; rw [if_neg hN]
  refine (broadcastInDim_apply _ h3 _ (ix2 (0 : Fin 1) n) (ix1 n) ?_).trans ?_
  · intro a
    match a with
    | ⟨0, _⟩ => show n.val = if N = 1 then 0 else n.val; rw [if_neg hN]
  refine (shapeCast_apply _ h2 (ix1 n) (ix2 (0 : Fin 1) n) ?_).trans ?_
  · rewrite [Shape.rowMajor_val_two, Shape.rowMajor_val_one]
    show (0 : Fin 1).val * N + n.val = n.val
    simp
  refine extractStridedSlice_apply ![g.val, 0] B h1 (ix2 (0 : Fin 1) n) (ix2 g n) ?_
  intro a
  match a with
  | ⟨0, _⟩ => show g.val = g.val + (0 : Fin 1).val; simp
  | ⟨1, _⟩ => show n.val = 0 + n.val; omega

end Cert.LibHostReads

end
-- ==== Proof.LibColRowBroadcast.lean ====
/-
  Four re-layings of a vector read at one entry, over any sizes and any element type.

  * A vector of `a` entries cast to a column [a, 1]: the column at (p, 0) is entry p.
  * A vector of `b` entries cast to a row [1, b]: the row at (0, q) is entry q.
  * A column [a, 1] broadcast along the lanes to [a, b]: the result at (p, q) is the column at (p, 0).
  * A row [1, b] broadcast down the sublanes to [a, b]: the result at (p, q) is the row at (0, q).

  Between a cast and a broadcast a kernel may apply pointwise operations to the column (a square root, a clamp, a
  reciprocal); reading the two steps separately lets those be read at (p, 0) in between.
-/
import Idealize.ShloMosaic.Lib.Pipeline.Value
import Idealize.ShloMosaic.Lib.ValueIdx

noncomputable section

namespace Cert.ColRowBroadcast

open Idealize.ShloMosaic Idealize.ShloMosaic.ValueIdx

/-- A vector of `a` entries cast to a column reads, at (p, 0), entry `p`. -/
theorem colCast_apply {α : Type} {a : ℕ} (u : (⟨1, ![a]⟩ : Shape).Idx → α)
    (hc : (⟨1, ![a]⟩ : Shape).ShapeCasts ⟨2, ![a, 1]⟩) (p : Fin a) (z : Fin 1) :
    shapeCast ⟨2, ![a, 1]⟩ u hc (ix2 p z) = u (ix1 p) := by
  refine shapeCast_apply u hc (ix2 p z) (ix1 p) ?_
  rw [Shape.rowMajor_val_one, Shape.rowMajor_val_two]
  show p.val = p.val * 1 + z.val
  have := z.isLt
  omega

/-- A vector of `b` entries cast to a row reads, at (0, q), entry `q`. -/
theorem rowCast_apply {α : Type} {b : ℕ} (u : (⟨1, ![b]⟩ : Shape).Idx → α)
    (hc : (⟨1, ![b]⟩ : Shape).ShapeCasts ⟨2, ![1, b]⟩) (z : Fin 1) (q : Fin b) :
    shapeCast ⟨2, ![1, b]⟩ u hc (ix2 z q) = u (ix1 q) := by
  refine shapeCast_apply u hc (ix2 z q) (ix1 q) ?_
  rw [Shape.rowMajor_val_one, Shape.rowMajor_val_two]
  show q.val = z.val * b + q.val
  have hz : z.val = 0 := by have := z.isLt; omega
  rw [hz, Nat.zero_mul, Nat.zero_add]

/-- A column broadcast along the lanes reads, at (p, q), the column at (p, 0). -/
theorem colBroadcast_apply {α : Type} {a b : ℕ} (w : (⟨2, ![a, 1]⟩ : Shape).Idx → α)
    (hb : (⟨2, ![a, 1]⟩ : Shape).Broadcasts ⟨2, ![a, b]⟩) (p : Fin a) (q : Fin b) :
    broadcastTo ⟨2, ![a, b]⟩ w hb (ix2 p q) = w (ix2 p (0 : Fin 1)) := by
  refine broadcastTo_apply w hb (ix2 p q) (ix2 p (0 : Fin 1)) fun c => ?_
  match c with
  | ⟨0, _⟩ =>
    show p.val = if a = 1 then 0 else p.val
    split
    · have := p.isLt; omega
    · rfl
  | ⟨1, _⟩ =>
    exact (if_pos rfl).symm

/-- A row broadcast down the sublanes reads, at (p, q), the row at (0, q). -/
theorem rowBroadcast_apply {α : Type} {a b : ℕ} (w : (⟨2, ![1, b]⟩ : Shape).Idx → α)
    (hb : (⟨2, ![1, b]⟩ : Shape).Broadcasts ⟨2, ![a, b]⟩) (p : Fin a) (q : Fin b) :
    broadcastTo ⟨2, ![a, b]⟩ w hb (ix2 p q) = w (ix2 (0 : Fin 1) q) := by
  refine broadcastTo_apply w hb (ix2 p q) (ix2 (0 : Fin 1) q) fun c => ?_
  match c with
  | ⟨0, _⟩ =>
    exact (if_pos rfl).symm
  | ⟨1, _⟩ =>
    show q.val = if b = 1 then 0 else q.val
    split
    · have := q.isLt; omega
    · rfl

end Cert.ColRowBroadcast

end
-- ==== Proof.LibDenseRows.lean ====
/-
  A fully connected layer whose weight table is stored output-major: W has N rows of K entries, and output j of an
  input row a of K entries is  Σ_k a k · W (j, k) + b j.  Everything here is on the extended reals and over any sizes.

  The layer is read ROW BY ROW: `affine W b a` is the output row of the input row `a`, `relu` the row's maximum with
  zero entry by entry. Two programs' spellings of the layer are read as these functions of a row:

  * the vector unit's, on a block of M rows: a matrix product contracting the LAST axis of both operands into a zero
    accumulator, plus the bias kept as a [1, N] row broadcast down the block (`vector_affine_row`), then the maximum
    with a splat zero and a change of float format (`vector_hidden_row`);
  * the host's, on the whole array: the weight table transposed to K × N, a plain `dot_general`, plus the bias
    vector laid as a [1, N] row and broadcast to M rows (`host_affine_row`), then the maximum with a broadcast zero
    scalar (`host_hidden_row`).

  Row p of either result is the same function of row p of the input: no other row enters it, which is what lets a
  block of rows stand for the rows of the whole array.

  Also here: the sign table `binarize W` (+1 where an entry is ≥ 0, −1 elsewhere) as the host spells it with a
  compare and a select of two broadcast scalars, and the identity w + (s − w) = s for a real w and a real s, by
  which the straight-through form  W + (binarize W − W)  is  binarize W  on a table of real entries.
-/
import Idealize.ShloMosaic.PureOps.Ideal.Laws
import Idealize.ShloMosaic.Lib.Pipeline.Value
import Idealize.ShloMosaic.Lib.ValueIdx
import Idealize.ShloMosaic.Lib.IdealHost
import proofs.«178437_j44057774522909_2_alg».proof.Proof.LibMatmulNT
import proofs.«178437_j44057774522909_2_alg».proof.Proof.LibHostReads
import proofs.«178437_j44057774522909_2_alg».proof.Proof.LibColRowBroadcast

noncomputable section

open scoped BigOperators

namespace Cert.DenseRows

open Idealize.ShloMosaic Idealize.ShloMosaic.ValueIdx

/-! ## Rows -/

/-- Row `p` of an M × K array. -/
def row {M K : Nat} (A : (⟨2, ![M, K]⟩ : Shape).Idx → EReal) (p : Fin M) : Fin K → EReal := fun k => A (ix2 p k)

/-- A vector of N entries as a function of the entry's number. -/
def vec {N : Nat} (b : (⟨1, ![N]⟩ : Shape).Idx → EReal) : Fin N → EReal := fun j => b (ix1 j)

/-- The layer on one row: output j is Σ_k a k · W (j, k) + b j. -/
def affine {K N : Nat} (W : (⟨2, ![N, K]⟩ : Shape).Idx → EReal) (b : Fin N → EReal) (a : Fin K → EReal) : Fin N → EReal :=
  fun j => (∑ k : Fin K, a k * W (ix2 j k)) + b j

/-- The maximum with zero, entry by entry (zero kept as the f32 word both programs write). -/
def relu {N : Nat} (v : Fin N → EReal) : Fin N → EReal := fun j => max (v j) (Ideal.ofBits .f32 0x00000000#32)

/-! ## The vector unit's spelling, on a block of rows -/

/-- Row `p` of the block's product-plus-bias is the layer on row `p` of the block. -/
theorem vector_affine_row (M K N : Nat) {φ₁ φ₂ : FTy} (prec : Option ContractPrecision)
    (a : FVec Ideal ⟨2, ![M, K]⟩ φ₁) (W : FVec Ideal ⟨2, ![N, K]⟩ φ₂) (b : FVec Ideal ⟨2, ![1, N]⟩ .f32)
    (hW : (⟨2, ![N, K]⟩ : Shape).ShapeCasts ⟨2, ![N, K]⟩) (hb : (⟨2, ![1, N]⟩ : Shape).ShapeCasts ⟨2, ![1, N]⟩)
    (hbb : (⟨2, ![1, N]⟩ : Shape).Broadcasts ⟨2, ![M, N]⟩) (p : Fin M) :
    row (addf (matmul (DotDims.transposedRhs M K N) prec a (shapeCast ⟨2, ![N, K]⟩ W hW) (constant ⟨2, ![M, N]⟩ .f32 0x00000000#32))
          (broadcastTo ⟨2, ![M, N]⟩ (shapeCast ⟨2, ![1, N]⟩ b hb) hbb)) p
      = affine W (row b 0) (row a p) := by
  funext j
  rw [shapeCast_self, shapeCast_self]
  show FloatOps.matmul (DotDims.transposedRhs M K N) prec a W (constant ⟨2, ![M, N]⟩ .f32 0x00000000#32) (ix2 p j)
      + broadcastTo ⟨2, ![M, N]⟩ b hbb (ix2 p j) = _
  rw [MatmulNT.matmul_zero_apply, ColRowBroadcast.rowBroadcast_apply]
  rfl

/-- The same followed by the maximum with a splat zero and a change of float format: a hidden layer's row. -/
theorem vector_hidden_row (M K N : Nat) {φ₁ φ₂ ψ : FTy} (prec : Option ContractPrecision)
    (a : FVec Ideal ⟨2, ![M, K]⟩ φ₁) (W : FVec Ideal ⟨2, ![N, K]⟩ φ₂) (b : FVec Ideal ⟨2, ![1, N]⟩ .f32)
    (hW : (⟨2, ![N, K]⟩ : Shape).ShapeCasts ⟨2, ![N, K]⟩) (hb : (⟨2, ![1, N]⟩ : Shape).ShapeCasts ⟨2, ![1, N]⟩)
    (hbb : (⟨2, ![1, N]⟩ : Shape).Broadcasts ⟨2, ![M, N]⟩) (hψ : ψ.bits < FTy.f32.bits) (p : Fin M) :
    row (truncf ψ (maximumf
          (addf (matmul (DotDims.transposedRhs M K N) prec a (shapeCast ⟨2, ![N, K]⟩ W hW) (constant ⟨2, ![M, N]⟩ .f32 0x00000000#32))
            (broadcastTo ⟨2, ![M, N]⟩ (shapeCast ⟨2, ![1, N]⟩ b hb) hbb))
          (broadcast ⟨2, ![M, N]⟩ (Scalar.ofBits (F := Ideal) .f32 0x00000000#32))) hψ) p
      = relu (affine W (row b 0) (row a p)) := by
  rw [← vector_affine_row M K N prec a W b hW hb hbb p]
  rfl

/-! ## The host's spelling, on the whole array -/

/-- Entry (k, j) of the transposed table is entry (j, k) of the table. -/
theorem transpose_table_apply {α : Type} {N K : Nat} (W : (⟨2, ![N, K]⟩ : Shape).Idx → α)
    (hT : (⟨2, ![N, K]⟩ : Shape).Transposes [1, 0] ⟨2, ![K, N]⟩) (k : Fin K) (j : Fin N) :
    transpose ⟨2, ![K, N]⟩ [1, 0] W hT (ix2 k j) = W (ix2 j k) :=
  transpose_apply [1, 0] W hT (ix2 k j) (ix2 j k) (fun b => match b with
    | ⟨0, _⟩ => rfl
    | ⟨1, _⟩ => rfl)

/-- A bias vector laid as a [1, N] row and broadcast to M rows reads, at (r, j), entry j. -/
theorem bias_rows_apply {α : Type} {M N : Nat} (hN : N ≠ 1) (b : (⟨1, ![N]⟩ : Shape).Idx → α)
    (h1 : (⟨1, ![N]⟩ : Shape).BroadcastsInDim ⟨2, ![1, N]⟩ ![1])
    (h2 : (⟨2, ![1, N]⟩ : Shape).BroadcastsInDim ⟨2, ![M, N]⟩ ![0, 1]) (r : Fin M) (j : Fin N) :
    broadcastInDim ⟨2, ![M, N]⟩ ![0, 1] h2 (broadcastInDim ⟨2, ![1, N]⟩ ![1] h1 b) (ix2 r j) = b (ix1 j) := by
  refine (broadcastInDim_apply _ h2 _ (ix2 r j) (ix2 (0 : Fin 1) j) ?_).trans ?_
  · intro a
    match a with
    | ⟨0, _⟩ => show (0 : Fin 1).val = if (1 : Nat) = 1 then 0 else r.val; rw [if_pos rfl]; rfl
    | ⟨1, _⟩ => show j.val = if N = 1 then 0 else j.val; rw [if_neg hN]
  refine broadcastInDim_apply _ h1 _ (ix2 (0 : Fin 1) j) (ix1 j) ?_
  intro a
  match a with
  | ⟨0, _⟩ => show j.val = if N = 1 then 0 else j.val; rw [if_neg hN]

/-- Row `r` of the host's product-plus-bias is the layer on row `r` of its input. -/
theorem host_affine_row (M K N : Nat) (hN : N ≠ 1) {φ₁ φ₂ : FTy} (prec : Option ContractPrecision)
    (a : FVec Ideal ⟨2, ![M, K]⟩ φ₁) (W : FVec Ideal ⟨2, ![N, K]⟩ φ₂) (b : FVec Ideal ⟨1, ![N]⟩ .f32)
    (hT : (⟨2, ![N, K]⟩ : Shape).Transposes [1, 0] ⟨2, ![K, N]⟩)
    (h1 : (⟨1, ![N]⟩ : Shape).BroadcastsInDim ⟨2, ![1, N]⟩ ![1])
    (h2 : (⟨2, ![1, N]⟩ : Shape).BroadcastsInDim ⟨2, ![M, N]⟩ ![0, 1]) (r : Fin M) :
    row (addf (Host.dotGeneral (F := Ideal) (DotDims.plain M K N) prec a (transpose ⟨2, ![K, N]⟩ [1, 0] W hT))
          (broadcastInDim ⟨2, ![M, N]⟩ ![0, 1] h2 (broadcastInDim ⟨2, ![1, N]⟩ ![1] h1 b))) r
      = affine W (vec b) (row a r) := by
  funext j
  show Host.dotGeneral (F := Ideal) (DotDims.plain M K N) prec a (transpose ⟨2, ![K, N]⟩ [1, 0] W hT) (ix2 r j)
      + broadcastInDim ⟨2, ![M, N]⟩ ![0, 1] h2 (broadcastInDim ⟨2, ![1, N]⟩ ![1] h1 b) (ix2 r j) = _
  rw [LibHostReads.dotGeneral_plain_apply, bias_rows_apply hN]
  show _ = (∑ k : Fin K, a (ix2 r k) * W (ix2 j k)) + b (ix1 j)
  refine congrArg (· + b (ix1 j)) (Finset.sum_congr rfl fun k _ => ?_)
  rw [transpose_table_apply]

/-- The same followed by the maximum with a broadcast zero scalar: a hidden layer's row. -/
theorem host_hidden_row (M K N : Nat) (hN : N ≠ 1) {φ₁ φ₂ : FTy} (prec : Option ContractPrecision)
    (a : FVec Ideal ⟨2, ![M, K]⟩ φ₁) (W : FVec Ideal ⟨2, ![N, K]⟩ φ₂) (b : FVec Ideal ⟨1, ![N]⟩ .f32)
    (hT : (⟨2, ![N, K]⟩ : Shape).Transposes [1, 0] ⟨2, ![K, N]⟩)
    (h1 : (⟨1, ![N]⟩ : Shape).BroadcastsInDim ⟨2, ![1, N]⟩ ![1])
    (h2 : (⟨2, ![1, N]⟩ : Shape).BroadcastsInDim ⟨2, ![M, N]⟩ ![0, 1])
    (h0 : (⟨0, ![]⟩ : Shape).BroadcastsInDim ⟨2, ![M, N]⟩ ![]) (r : Fin M) :
    row (maximumf
          (addf (Host.dotGeneral (F := Ideal) (DotDims.plain M K N) prec a (transpose ⟨2, ![K, N]⟩ [1, 0] W hT))
            (broadcastInDim ⟨2, ![M, N]⟩ ![0, 1] h2 (broadcastInDim ⟨2, ![1, N]⟩ ![1] h1 b)))
          (broadcastInDim ⟨2, ![M, N]⟩ ![] h0 (constant (F := Ideal) ⟨0, ![]⟩ .f32 0x00000000#32))) r
      = relu (affine W (vec b) (row a r)) := by
  rw [← host_affine_row M K N hN prec a W b hT h1 h2 r]
  funext j
  show max _ (broadcastInDim ⟨2, ![M, N]⟩ ![] h0 (constant (F := Ideal) ⟨0, ![]⟩ .f32 0x00000000#32) (ix2 r j)) = _
  rw [broadcastInDim_scalar_apply]
  rfl

/-! ## The sign table -/

/-- +1 (the f32 word of one) at an entry that is ≥ 0, −1 (the f32 word of minus one) elsewhere. -/
def sgn (w : EReal) : EReal :=
  Scalar.select (Ideal.cmp .oge w (Ideal.ofBits .f32 0x00000000#32)) (Ideal.ofBits .f32 0x3F800000#32) (Ideal.ofBits .f32 0xBF800000#32)

/-- The table of signs of a table. -/
def binarize {S : Shape} (W : S.Idx → EReal) : S.Idx → EReal := fun i => sgn (W i)

/-- The host's compare-with-zero and select of two broadcast scalars is the sign table. -/
theorem select_signs (S : Shape) (W : FVec Ideal S .f32)
    (h0 h1 h2 : (⟨0, ![]⟩ : Shape).BroadcastsInDim S ![]) :
    select (cmpf .oge W (broadcastInDim S ![] h0 (constant (F := Ideal) ⟨0, ![]⟩ .f32 0x00000000#32)))
        (broadcastInDim S ![] h1 (constant (F := Ideal) ⟨0, ![]⟩ .f32 0x3F800000#32))
        (broadcastInDim S ![] h2 (constant (F := Ideal) ⟨0, ![]⟩ .f32 0xBF800000#32))
      = binarize W := by
  funext i
  rw [select_apply, cmpf_apply, broadcastInDim_scalar_apply, broadcastInDim_scalar_apply, broadcastInDim_scalar_apply]
  rfl

/-- The f32 word of minus one is the real −1. -/
theorem ofBits_neg_one_f32 : Ideal.ofBits .f32 0xBF800000#32 = ((-(1 : ℝ) : ℝ) : EReal) := by
  simp [Ideal.ofBits, Ideal.ieee, -EReal.coe_mul, -EReal.coe_neg]; norm_num

/-- A sign is a real number. -/
theorem sgn_real (w : EReal) : ∃ s : ℝ, sgn w = (s : EReal) := by
  unfold sgn Scalar.select
  split
  · exact ⟨1, by rw [Ideal.ofBits_one_f32]; norm_cast⟩
  · exact ⟨-1, ofBits_neg_one_f32⟩

/-- Adding back what was taken away: w + (s − w) = s when w and s are real numbers. -/
theorem add_sub_cancel_real (w s : ℝ) : (w : EReal) + ((s : EReal) - (w : EReal)) = (s : EReal) := by
  rw [← EReal.coe_sub, ← EReal.coe_add]
  congr 1
  ring

/-- The straight-through form of the sign table, W + (binarize W − W), is the sign table where W is real. -/
theorem straight_through {S : Shape} (W : S.Idx → EReal) (hW : ∀ i, ∃ r : ℝ, W i = (r : EReal)) :
    (fun i => W i + (binarize W i - W i)) = binarize W := by
  funext i
  obtain ⟨r, hr⟩ := hW i
  obtain ⟨s, hs⟩ := sgn_real (W i)
  show W i + (sgn (W i) - W i) = sgn (W i)
  rw [hs, hr]
  exact add_sub_cancel_real r s

end Cert.DenseRows

end
-- ==== Proof.Spec.lean ====
/-
  The function both programs compute: a four-layer perceptron on 65536 rows of 784 entries.

  The first three layers multiply by the SIGN tables of their weight tables w1, w2, w3 (+1 at an entry ≥ 0, −1
  elsewhere), add a bias and take the maximum with zero; the last multiplies by w4 itself and adds its bias. Every
  weight table is stored output-major, so output j of a layer is Σ_k a k · W (j, k) + b j. Row r of the result
  depends on row r of the input only:  G (r, j) = net … (row r of x) j.
-/
import proofs.«178437_j44057774522909_2_alg».proof.Proof.LibDenseRows

noncomputable section

namespace Cert.Mlp

open Idealize.ShloMosaic Idealize.ShloMosaic.ValueIdx Cert.DenseRows

/-- One input row through the four layers, the tables being the ones the layers multiply by. -/
def net (W1 : (⟨2, ![512, 784]⟩ : Shape).Idx → EReal) (b1 : Fin 512 → EReal)
    (W2 : (⟨2, ![512, 512]⟩ : Shape).Idx → EReal) (b2 : Fin 512 → EReal)
    (W3 : (⟨2, ![512, 512]⟩ : Shape).Idx → EReal) (b3 : Fin 512 → EReal)
    (W4 : (⟨2, ![10, 512]⟩ : Shape).Idx → EReal) (b4 : Fin 10 → EReal) (a : Fin 784 → EReal) : Fin 10 → EReal :=
  affine W4 b4 (relu (affine W3 b3 (relu (affine W2 b2 (relu (affine W1 b1 a))))))

/-- The whole result array as one function of the nine argument arrays. -/
def G (x : (⟨2, ![65536, 784]⟩ : Shape).Idx → EReal)
    (w1 : (⟨2, ![512, 784]⟩ : Shape).Idx → EReal) (b1 : (⟨1, ![512]⟩ : Shape).Idx → EReal)
    (w2 : (⟨2, ![512, 512]⟩ : Shape).Idx → EReal) (b2 : (⟨1, ![512]⟩ : Shape).Idx → EReal)
    (w3 : (⟨2, ![512, 512]⟩ : Shape).Idx → EReal) (b3 : (⟨1, ![512]⟩ : Shape).Idx → EReal)
    (w4 : (⟨2, ![10, 512]⟩ : Shape).Idx → EReal) (b4 : (⟨1, ![10]⟩ : Shape).Idx → EReal) :
    (⟨2, ![65536, 10]⟩ : Shape).Idx → EReal :=
  fun i => net (binarize w1) (vec b1) (binarize w2) (vec b2) (binarize w3) (vec b3) w4 (vec b4) (row x (i 0)) (i 1)

theorem G_apply (x : (⟨2, ![65536, 784]⟩ : Shape).Idx → EReal)
    (w1 : (⟨2, ![512, 784]⟩ : Shape).Idx → EReal) (b1 : (⟨1, ![512]⟩ : Shape).Idx → EReal)
    (w2 : (⟨2, ![512, 512]⟩ : Shape).Idx → EReal) (b2 : (⟨1, ![512]⟩ : Shape).Idx → EReal)
    (w3 : (⟨2, ![512, 512]⟩ : Shape).Idx → EReal) (b3 : (⟨1, ![512]⟩ : Shape).Idx → EReal)
    (w4 : (⟨2, ![10, 512]⟩ : Shape).Idx → EReal) (b4 : (⟨1, ![10]⟩ : Shape).Idx → EReal) (r : Fin 65536) (j : Fin 10) :
    G x w1 b1 w2 b2 w3 b3 w4 b4 (ix2 r j)
      = net (binarize w1) (vec b1) (binarize w2) (vec b2) (binarize w3) (vec b3) w4 (vec b4) (row x r) j := rfl

end Cert.Mlp

end
-- ==== Proof.KernelBlock.lean ====
/-
  What one grid point's body leaves in its output block, read row by row.

  The body loads a block of 2048 input rows, the three sign tables and the last weight table whole, and the four
  biases as [1, N] rows; it runs three hidden layers (product contracting the last axis of both operands, bias row
  broadcast down the block, maximum with zero, change of float format) and the last layer (product, bias). Entry
  (p, j) of the block it stores is therefore the four-layer net on row p of the input block — no other row of the
  block enters it.
-/
import proofs.«178437_j44057774522909_2_alg».proof.Proof.Gen.KernelIdeal.Value
import proofs.«178437_j44057774522909_2_alg».proof.Proof.LibDenseRows
import proofs.«178437_j44057774522909_2_alg».proof.Proof.Spec

noncomputable section

namespace Cert.KernelIdeal.Block

open Cert.KernelIdeal Cert.KernelIdeal.Gen Cert.KernelIdeal.Value
open Idealize.ShloMosaic Idealize.ShloMosaic.ValueIdx Cert.DenseRows Cert.Mlp

/-- The three products contract the last axis of both operands. -/
theorem dot1_eq : dot_S2048x784_S512x784_S2048x512_1_1_0_0_n_n = DotDims.transposedRhs 2048 784 512 := rfl
theorem dot2_eq : dot_S2048x512_S512x512_S2048x512_1_1_0_0_n_n = DotDims.transposedRhs 2048 512 512 := rfl
theorem dot3_eq : dot_S2048x512_S10x512_S2048x10_1_1_0_0_n_n = DotDims.transposedRhs 2048 512 10 := rfl

/-- The first hidden layer's activations on the block, as the body computes them. -/
def act1 (P0 : FVec Ideal S2048x784 .f32) (P1 : FVec Ideal S512x784 .bf16) (P2 : FVec Ideal S1x512 .f32) : FVec Ideal S2048x512 .bf16 :=
  truncf .bf16 (maximumf
    (addf (matmul dot_S2048x784_S512x784_S2048x512_1_1_0_0_n_n none (truncf .bf16 P0 bitsLt_bf16_f32)
        (shapeCast S512x784 P1 shapeCasts_S512x784_S512x784) (constant S2048x512 .f32 0x00000000#32))
      (broadcastTo S2048x512 (shapeCast S1x512 P2 shapeCasts_S1x512_S1x512) broadcasts_S1x512_S2048x512))
    (broadcast S2048x512 (Scalar.ofBits .f32 0x00000000#32))) bitsLt_bf16_f32

/-- A later hidden layer's activations on the block, from the previous layer's. -/
def actN (a : FVec Ideal S2048x512 .bf16) (W : FVec Ideal S512x512 .bf16) (b : FVec Ideal S1x512 .f32) : FVec Ideal S2048x512 .bf16 :=
  truncf .bf16 (maximumf
    (addf (matmul dot_S2048x512_S512x512_S2048x512_1_1_0_0_n_n none a
        (shapeCast S512x512 W shapeCasts_S512x512_S512x512) (constant S2048x512 .f32 0x00000000#32))
      (broadcastTo S2048x512 (shapeCast S1x512 b shapeCasts_S1x512_S1x512) broadcasts_S1x512_S2048x512))
    (broadcast S2048x512 (Scalar.ofBits .f32 0x00000000#32))) bitsLt_bf16_f32

/-- The body's product before the last bias is the last product of the third hidden layer's activations. -/
theorem pay2_eq (P0 : FVec Ideal S2048x784 .f32) (P1 : FVec Ideal S512x784 .bf16) (P2 : FVec Ideal S1x512 .f32)
    (P3 : FVec Ideal S512x512 .bf16) (P4 : FVec Ideal S1x512 .f32) (P5 : FVec Ideal S512x512 .bf16) (P6 : FVec Ideal S1x512 .f32)
    (P7 : FVec Ideal S10x512 .bf16) :
    k0_pay2 (F := Ideal) P0 P1 P2 P3 P4 P5 P6 P7
      = matmul dot_S2048x512_S10x512_S2048x10_1_1_0_0_n_n none (actN (actN (act1 P0 P1 P2) P3 P4) P5 P6)
          (shapeCast S10x512 P7 shapeCasts_S10x512_S10x512) (constant S2048x10 .f32 0x00000000#32) := rfl

/-- Row p of the first hidden layer's activations is the layer on row p of the input block. -/
theorem act1_row (P0 : FVec Ideal S2048x784 .f32) (P1 : FVec Ideal S512x784 .bf16) (P2 : FVec Ideal S1x512 .f32) (p : Fin 2048) :
    row (act1 P0 P1 P2) p = relu (affine P1 (row P2 0) (row P0 p)) := by
  unfold act1
  rw [dot1_eq]
  exact vector_hidden_row 2048 784 512 none (truncf .bf16 P0 bitsLt_bf16_f32) P1 P2 _ _ _ _ p

/-- Row p of a later hidden layer's activations is the layer on row p of the previous activations. -/
theorem actN_row (a : FVec Ideal S2048x512 .bf16) (W : FVec Ideal S512x512 .bf16) (b : FVec Ideal S1x512 .f32) (p : Fin 2048) :
    row (actN a W b) p = relu (affine W (row b 0) (row a p)) := by
  unfold actN
  rw [dot2_eq]
  exact vector_hidden_row 2048 512 512 none a W b _ _ _ _ p

/-- Entry (p, j) of the block the body stores is the net on row p of the input block. -/
theorem block_apply (P0 : FVec Ideal S2048x784 .f32) (P1 : FVec Ideal S512x784 .bf16) (P2 : FVec Ideal S1x512 .f32)
    (P3 : FVec Ideal S512x512 .bf16) (P4 : FVec Ideal S1x512 .f32) (P5 : FVec Ideal S512x512 .bf16) (P6 : FVec Ideal S1x512 .f32)
    (P7 : FVec Ideal S10x512 .bf16) (P8 : FVec Ideal S1x10 .f32) (p : Fin 2048) (j : Fin 10) :
    E9 (F := Ideal) P0 P1 P2 P3 P4 P5 P6 P7 P8 (ix2 p j)
      = net P1 (row P2 0) P3 (row P4 0) P5 (row P6 0) P7 (row P8 0) (row P0 p) j := by
  have e0 : ix9_0 (ix2 p j) = ix2 p j := funext fun a => Fin.ext (by
    match a with
    | ⟨0, _⟩ => rfl
    | ⟨1, _⟩ => rfl)
  have e1 : ix9_1 (ix2 p j) = ix2 (0 : Fin 1) j := funext fun a => Fin.ext (by
    match a with
    | ⟨0, _⟩ => rfl
    | ⟨1, _⟩ => rfl)
  show k0_pay2 (F := Ideal) P0 P1 P2 P3 P4 P5 P6 P7 (ix9_0 (ix2 p j)) + P8 (ix9_1 (ix2 p j)) = _
  rw [e0, e1, pay2_eq, dot3_eq, shapeCast_self]
  show FloatOps.matmul (DotDims.transposedRhs 2048 512 10) none (actN (actN (act1 P0 P1 P2) P3 P4) P5 P6) P7
      (constant ⟨2, ![2048, 10]⟩ .f32 0x00000000#32) (ix2 p j) + P8 (ix2 (0 : Fin 1) j) = _
  rw [MatmulNT.matmul_zero_apply]
  show affine P7 (row P8 0) (row (actN (actN (act1 P0 P1 P2) P3 P4) P5 P6) p) j = _
  rw [actN_row, actN_row, act1_row]
  rfl

end Cert.KernelIdeal.Block

end
-- ==== Proof.KernelWindows.lean ====
/-
  What the region finds in the arrays its windows stage.

  Before the region the host writes, from the argument arrays: the sign tables of w1, w2, w3 (compare with zero,
  select +1 or −1, change of float format), w4 under a change of float format, and each bias vector laid as a [1, N]
  row. Here each of those arrays is read as a function of the arguments: a sign table is `binarize` of its weight
  table, the last table is w4, and a bias row at (0, j) is entry j of its bias vector.
-/
import proofs.«178437_j44057774522909_2_alg».proof.Proof.Gen.KernelIdeal.Frame
import proofs.«178437_j44057774522909_2_alg».proof.Proof.LibDenseRows
import Idealize.ShloMosaic.Lib.StableHlo.Run

noncomputable section

namespace Cert.KernelIdeal.Windows

open Cert.KernelIdeal Cert.KernelIdeal.Gen
open Idealize.ShloMosaic Idealize.ShloMosaic.TcCoe Idealize.SL.Sem Idealize.ShloMosaic.StableHlo
open Idealize.ShloMosaic.ValueIdx Cert.DenseRows

variable (m : (ℓ : Loc nD τ sig) → Buf (Elt Ideal) ℓ)

/-! ## The sign tables and the last weight table -/

theorem V_w1 (c : Dev nD) : (V m c main_v3 : S512x784.Idx → EReal) = binarize (m ((c : Thread nD τ).loc main_arg1)) := by
  rw [← select_signs S512x784 (m ((c : Thread nD τ).loc main_arg1)) bcast_S_S512x784 bcast_S_S512x784 bcast_S_S512x784]
  dsimp only [V]
  simp only [hostOps0, hostOps0_1, hostOps0_2, hostOps0_3, hostOps0_4, hostOps0_5, hostOps0_6, List.flatten_cons, List.flatten_nil,
    List.append_nil, List.cons_append, List.nil_append]
  after_results
  rfl

theorem V_w2 (c : Dev nD) : (V m c main_v7 : S512x512.Idx → EReal) = binarize (m ((c : Thread nD τ).loc main_arg3)) := by
  rw [← select_signs S512x512 (m ((c : Thread nD τ).loc main_arg3)) bcast_S_S512x512 bcast_S_S512x512 bcast_S_S512x512]
  dsimp only [V]
  simp only [hostOps0, hostOps0_1, hostOps0_2, hostOps0_3, hostOps0_4, hostOps0_5, hostOps0_6, List.flatten_cons, List.flatten_nil,
    List.append_nil, List.cons_append, List.nil_append]
  after_results
  rfl

theorem V_w3 (c : Dev nD) : (V m c main_v11 : S512x512.Idx → EReal) = binarize (m ((c : Thread nD τ).loc main_arg5)) := by
  rw [← select_signs S512x512 (m ((c : Thread nD τ).loc main_arg5)) bcast_S_S512x512 bcast_S_S512x512 bcast_S_S512x512]
  dsimp only [V]
  simp only [hostOps0, hostOps0_1, hostOps0_2, hostOps0_3, hostOps0_4, hostOps0_5, hostOps0_6, List.flatten_cons, List.flatten_nil,
    List.append_nil, List.cons_append, List.nil_append]
  after_results
  rfl

theorem V_w4 (c : Dev nD) : (V m c main_v12 : S10x512.Idx → EReal) = m ((c : Thread nD τ).loc main_arg7) := by
  dsimp only [V]
  simp only [hostOps0, hostOps0_1, hostOps0_2, hostOps0_3, hostOps0_4, hostOps0_5, hostOps0_6, List.flatten_cons, List.flatten_nil,
    List.append_nil, List.cons_append, List.nil_append]
  after_results
  rfl

/-! ## The bias rows -/

theorem V_b1 (c : Dev nD) : (V m c main_v13 : S1x512.Idx → EReal)
    = shapeCast S1x512 (m ((c : Thread nD τ).loc main_arg2)) shapeCasts_S512_S1x512 := by
  dsimp only [V]
  simp only [hostOps0, hostOps0_1, hostOps0_2, hostOps0_3, hostOps0_4, hostOps0_5, hostOps0_6, List.flatten_cons, List.flatten_nil,
    List.append_nil, List.cons_append, List.nil_append]
  after_results
  rfl

theorem V_b2 (c : Dev nD) : (V m c main_v14 : S1x512.Idx → EReal)
    = shapeCast S1x512 (m ((c : Thread nD τ).loc main_arg4)) shapeCasts_S512_S1x512 := by
  dsimp only [V]
  simp only [hostOps0, hostOps0_1, hostOps0_2, hostOps0_3, hostOps0_4, hostOps0_5, hostOps0_6, List.flatten_cons, List.flatten_nil,
    List.append_nil, List.cons_append, List.nil_append]
  after_results
  rfl

theorem V_b3 (c : Dev nD) : (V m c main_v15 : S1x512.Idx → EReal)
    = shapeCast S1x512 (m ((c : Thread nD τ).loc main_arg6)) shapeCasts_S512_S1x512 := by
  dsimp only [V]
  simp only [hostOps0, hostOps0_1, hostOps0_2, hostOps0_3, hostOps0_4, hostOps0_5, hostOps0_6, List.flatten_cons, List.flatten_nil,
    List.append_nil, List.cons_append, List.nil_append]
  after_results
  rfl

theorem V_b4 (c : Dev nD) : (V m c main_v16 : S1x10.Idx → EReal)
    = shapeCast S1x10 (m ((c : Thread nD τ).loc main_arg8)) shapeCasts_S10_S1x10 := by
  dsimp only [V]
  simp only [hostOps0, hostOps0_1, hostOps0_2, hostOps0_3, hostOps0_4, hostOps0_5, hostOps0_6, List.flatten_cons, List.flatten_nil,
    List.append_nil, List.cons_append, List.nil_append]
  after_results
  rfl

/-- A bias row at (0, j) is entry j of the bias vector. -/
theorem row_b1 (c : Dev nD) : row (V m c main_v13 : S1x512.Idx → EReal) 0 = vec (m ((c : Thread nD τ).loc main_arg2)) := by
  rw [V_b1]; funext j; exact ColRowBroadcast.rowCast_apply _ _ 0 j

theorem row_b2 (c : Dev nD) : row (V m c main_v14 : S1x512.Idx → EReal) 0 = vec (m ((c : Thread nD τ).loc main_arg4)) := by
  rw [V_b2]; funext j; exact ColRowBroadcast.rowCast_apply _ _ 0 j

theorem row_b3 (c : Dev nD) : row (V m c main_v15 : S1x512.Idx → EReal) 0 = vec (m ((c : Thread nD τ).loc main_arg6)) := by
  rw [V_b3]; funext j; exact ColRowBroadcast.rowCast_apply _ _ 0 j

theorem row_b4 (c : Dev nD) : row (V m c main_v16 : S1x10.Idx → EReal) 0 = vec (m ((c : Thread nD τ).loc main_arg8)) := by
  rw [V_b4]; funext j; exact ColRowBroadcast.rowCast_apply _ _ 0 j

end Cert.KernelIdeal.Windows

end
-- ==== Proof.KernelValue.lean ====
/-
  The kernel's result array after the run is `G` of the argument arrays.

  Grid point t stages rows 2048·t … 2048·t + 2047 of x, and every weight table and bias row whole; what it writes
  back is rows 2048·t … 2048·t + 2047 of the result. Entry (p, j) of the block it stores is the net on row p of its
  input block, which is row 2048·t + p of x; the tables it multiplies by are the sign tables of w1, w2, w3 and w4
  itself as the host wrote them before the region. So point t writes block t of `G`; the 32 blocks cover the 65536
  rows, and the array ends holding `G`.
-/
import proofs.«178437_j44057774522909_2_alg».proof.Proof.Gen.KernelIdeal.Value
import proofs.«178437_j44057774522909_2_alg».proof.Proof.KernelBlock
import proofs.«178437_j44057774522909_2_alg».proof.Proof.KernelWindows
import proofs.«178437_j44057774522909_2_alg».proof.Proof.Spec

noncomputable section

namespace Cert.KernelIdeal.Whole

open Cert.KernelIdeal Cert.KernelIdeal.Gen Cert.KernelIdeal.Value Cert.KernelIdeal.Block Cert.KernelIdeal.Windows
open Idealize.ShloMosaic Idealize.ShloMosaic.TcCoe Idealize.SL.Sem
open Idealize.ShloMosaic.ValueIdx Cert.DenseRows Cert.Mlp
open Idealize.ShloMosaic.Pipeline (Dat)

variable (m : (ℓ : Loc nD τ sig) → Buf (Elt Ideal) ℓ) (ρ : Dev nD → PrngReg)

theorem hz : (![0, 0] : Fin 2 → Nat) = fun _ => 0 := funext fun a => by fin_cases a <;> rfl

/-- The result array as the specification's function of the nine argument arrays as launched. -/
abbrev result (c : Dev nD) : S65536x10.Idx → EReal :=
  G (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))

/-- The printed index maps, decided over the 32 grid points: the input rows and the output rows move with the
    point, every other window stays at block (0, 0). -/
theorem idx_facts : ∀ t : Fin cfg0.N, win0_0.index t (0 : Fin 2) = t.val
    ∧ win0_0.index t (1 : Fin 2) = 0
    ∧ win0_9.index t (0 : Fin 2) = t.val
    ∧ win0_9.index t (1 : Fin 2) = 0
    ∧ win0_1.index t (0 : Fin 2) = 0
    ∧ win0_1.index t (1 : Fin 2) = 0
    ∧ win0_2.index t (0 : Fin 2) = 0
    ∧ win0_2.index t (1 : Fin 2) = 0
    ∧ win0_3.index t (0 : Fin 2) = 0
    ∧ win0_3.index t (1 : Fin 2) = 0
    ∧ win0_4.index t (0 : Fin 2) = 0
    ∧ win0_4.index t (1 : Fin 2) = 0
    ∧ win0_5.index t (0 : Fin 2) = 0
    ∧ win0_5.index t (1 : Fin 2) = 0
    ∧ win0_6.index t (0 : Fin 2) = 0
    ∧ win0_6.index t (1 : Fin 2) = 0
    ∧ win0_7.index t (0 : Fin 2) = 0
    ∧ win0_7.index t (1 : Fin 2) = 0
    ∧ win0_8.index t (0 : Fin 2) = 0
    ∧ win0_8.index t (1 : Fin 2) = 0 :=
  (by decide +kernel : ∀ t : Fin grid0.N, _)

theorem point_lt (t : Fin cfg0.N) : t.val < 32 := by
  exact lt_of_lt_of_eq t.isLt (show cfg0.N = 32 from N_0)

/-! ## Each window's block at a point -/

/-- Window 1 is staged whole at every point. -/
theorem blk_1 (c : Dev nD) (t : Fin cfg0.N) : (iblk m c 1 t : S512x784.Idx → EReal) = V m c main_v3 := by
  obtain ⟨x0, x1, o0, o1, a1, b1, a2, b2, a3, b3, a4, b4, a5, b5, a6, b6, a7, b7, a8, b8⟩ := idx_facts t
  funext y
  show V m c main_v3 (((cfg0.win 1).blk t).view.emb y) = V m c main_v3 y
  congr 1
  funext a
  apply Fin.ext
  match a with
  | ⟨0, _⟩ => show win0_1.index t (0 : Fin 2) * 512 + 1 * (y 0).val = (y 0).val; omega
  | ⟨1, _⟩ => show win0_1.index t (1 : Fin 2) * 784 + 1 * (y 1).val = (y 1).val; omega

/-- Window 2 is staged whole at every point. -/
theorem blk_2 (c : Dev nD) (t : Fin cfg0.N) : (iblk m c 2 t : S1x512.Idx → EReal) = V m c main_v13 := by
  obtain ⟨x0, x1, o0, o1, a1, b1, a2, b2, a3, b3, a4, b4, a5, b5, a6, b6, a7, b7, a8, b8⟩ := idx_facts t
  funext y
  show V m c main_v13 (((cfg0.win 2).blk t).view.emb y) = V m c main_v13 y
  congr 1
  funext a
  apply Fin.ext
  match a with
  | ⟨0, _⟩ => show win0_2.index t (0 : Fin 2) * 1 + 1 * (y 0).val = (y 0).val; omega
  | ⟨1, _⟩ => show win0_2.index t (1 : Fin 2) * 512 + 1 * (y 1).val = (y 1).val; omega

/-- Window 3 is staged whole at every point. -/
theorem blk_3 (c : Dev nD) (t : Fin cfg0.N) : (iblk m c 3 t : S512x512.Idx → EReal) = V m c main_v7 := by
  obtain ⟨x0, x1, o0, o1, a1, b1, a2, b2, a3, b3, a4, b4, a5, b5, a6, b6, a7, b7, a8, b8⟩ := idx_facts t
  funext y
  show V m c main_v7 (((cfg0.win 3).blk t).view.emb y) = V m c main_v7 y
  congr 1
  funext a
  apply Fin.ext
  match a with
  | ⟨0, _⟩ => show win0_3.index t (0 : Fin 2) * 512 + 1 * (y 0).val = (y 0).val; omega
  | ⟨1, _⟩ => show win0_3.index t (1 : Fin 2) * 512 + 1 * (y 1).val = (y 1).val; omega

/-- Window 4 is staged whole at every point. -/
theorem blk_4 (c : Dev nD) (t : Fin cfg0.N) : (iblk m c 4 t : S1x512.Idx → EReal) = V m c main_v14 := by
  obtain ⟨x0, x1, o0, o1, a1, b1, a2, b2, a3, b3, a4, b4, a5, b5, a6, b6, a7, b7, a8, b8⟩ := idx_facts t
  funext y
  show V m c main_v14 (((cfg0.win 4).blk t).view.emb y) = V m c main_v14 y
  congr 1
  funext a
  apply Fin.ext
  match a with
  | ⟨0, _⟩ => show win0_4.index t (0 : Fin 2) * 1 + 1 * (y 0).val = (y 0).val; omega
  | ⟨1, _⟩ => show win0_4.index t (1 : Fin 2) * 512 + 1 * (y 1).val = (y 1).val; omega

/-- Window 5 is staged whole at every point. -/
theorem blk_5 (c : Dev nD) (t : Fin cfg0.N) : (iblk m c 5 t : S512x512.Idx → EReal) = V m c main_v11 := by
  obtain ⟨x0, x1, o0, o1, a1, b1, a2, b2, a3, b3, a4, b4, a5, b5, a6, b6, a7, b7, a8, b8⟩ := idx_facts t
  funext y
  show V m c main_v11 (((cfg0.win 5).blk t).view.emb y) = V m c main_v11 y
  congr 1
  funext a
  apply Fin.ext
  match a with
  | ⟨0, _⟩ => show win0_5.index t (0 : Fin 2) * 512 + 1 * (y 0).val = (y 0).val; omega
  | ⟨1, _⟩ => show win0_5.index t (1 : Fin 2) * 512 + 1 * (y 1).val = (y 1).val; omega

/-- Window 6 is staged whole at every point. -/
theorem blk_6 (c : Dev nD) (t : Fin cfg0.N) : (iblk m c 6 t : S1x512.Idx → EReal) = V m c main_v15 := by
  obtain ⟨x0, x1, o0, o1, a1, b1, a2, b2, a3, b3, a4, b4, a5, b5, a6, b6, a7, b7, a8, b8⟩ := idx_facts t
  funext y
  show V m c main_v15 (((cfg0.win 6).blk t).view.emb y) = V m c main_v15 y
  congr 1
  funext a
  apply Fin.ext
  match a with
  | ⟨0, _⟩ => show win0_6.index t (0 : Fin 2) * 1 + 1 * (y 0).val = (y 0).val; omega
  | ⟨1, _⟩ => show win0_6.index t (1 : Fin 2) * 512 + 1 * (y 1).val = (y 1).val; omega

/-- Window 7 is staged whole at every point. -/
theorem blk_7 (c : Dev nD) (t : Fin cfg0.N) : (iblk m c 7 t : S10x512.Idx → EReal) = V m c main_v12 := by
  obtain ⟨x0, x1, o0, o1, a1, b1, a2, b2, a3, b3, a4, b4, a5, b5, a6, b6, a7, b7, a8, b8⟩ := idx_facts t
  funext y
  show V m c main_v12 (((cfg0.win 7).blk t).view.emb y) = V m c main_v12 y
  congr 1
  funext a
  apply Fin.ext
  match a with
  | ⟨0, _⟩ => show win0_7.index t (0 : Fin 2) * 10 + 1 * (y 0).val = (y 0).val; omega
  | ⟨1, _⟩ => show win0_7.index t (1 : Fin 2) * 512 + 1 * (y 1).val = (y 1).val; omega

/-- Window 8 is staged whole at every point. -/
theorem blk_8 (c : Dev nD) (t : Fin cfg0.N) : (iblk m c 8 t : S1x10.Idx → EReal) = V m c main_v16 := by
  obtain ⟨x0, x1, o0, o1, a1, b1, a2, b2, a3, b3, a4, b4, a5, b5, a6, b6, a7, b7, a8, b8⟩ := idx_facts t
  funext y
  show V m c main_v16 (((cfg0.win 8).blk t).view.emb y) = V m c main_v16 y
  congr 1
  funext a
  apply Fin.ext
  match a with
  | ⟨0, _⟩ => show win0_8.index t (0 : Fin 2) * 1 + 1 * (y 0).val = (y 0).val; omega
  | ⟨1, _⟩ => show win0_8.index t (1 : Fin 2) * 10 + 1 * (y 1).val = (y 1).val; omega

/-- Row p of the input block at point t is row 2048·t + p of x. -/
theorem blk_x (c : Dev nD) (t : Fin cfg0.N) (p : Fin 2048) (q : Fin 65536) (hq : q.val = t.val * 2048 + p.val) :
    row (iblk m c 0 t : S2048x784.Idx → EReal) p = row (m ((c : Thread nD τ).loc main_arg0)) q := by
  obtain ⟨x0, x1, o0, o1, a1, b1, a2, b2, a3, b3, a4, b4, a5, b5, a6, b6, a7, b7, a8, b8⟩ := idx_facts t
  funext k
  show V m c main_arg0 (((cfg0.win 0).blk t).view.emb (ix2 p k)) = m ((c : Thread nD τ).loc main_arg0) (ix2 q k)
  rw [V_main_arg0]
  congr 1
  funext a
  apply Fin.ext
  match a with
  | ⟨0, _⟩ => show win0_0.index t (0 : Fin 2) * 2048 + 1 * p.val = q.val; omega
  | ⟨1, _⟩ => show win0_0.index t (1 : Fin 2) * 784 + 1 * k.val = k.val; omega

/-! ## What a point writes back -/

/-- The net's tables at a point are the arguments' sign tables, w4, and the bias vectors. -/
theorem net_at_point (c : Dev nD) (t : Fin cfg0.N) (p : Fin 2048) (q : Fin 65536) (hq : q.val = t.val * 2048 + p.val) (j : Fin 10) :
    net (iblk m c 1 t) (row (iblk m c 2 t : S1x512.Idx → EReal) 0) (iblk m c 3 t) (row (iblk m c 4 t : S1x512.Idx → EReal) 0)
        (iblk m c 5 t) (row (iblk m c 6 t : S1x512.Idx → EReal) 0) (iblk m c 7 t) (row (iblk m c 8 t : S1x10.Idx → EReal) 0)
        (row (iblk m c 0 t : S2048x784.Idx → EReal) p) j
      = result m c (ix2 q j) := by
  rw [blk_x m c t p q hq, blk_1, blk_2, blk_3, blk_4, blk_5, blk_6, blk_7, blk_8, V_w1, V_w2, V_w3, V_w4, row_b1, row_b2, row_b3, row_b4]
  rfl

/-- Point t writes back block t of the result. -/
theorem flushed_eq (c : Dev nD) (t : Fin cfg0.N) :
    (dats m 0 c).flushed 9 t = ((cfg0.win 9).blk t).view.read (Elt Ideal) (result m c) := by
  rw [flushed9]
  unfold out0_9
  simp only [View.ld_unit_zero (S := S2048x784) hz, View.ld_unit_zero (S := S512x784) hz, View.ld_unit_zero (S := S1x512) hz, View.ld_unit_zero (S := S512x512) hz, View.ld_unit_zero (S := S10x512) hz, View.ld_unit_zero (S := S1x10) hz]
  funext y
  obtain ⟨p, j, rfl⟩ : ∃ (p : Fin 2048) (j : Fin 10), y = ix2 p j := ⟨y 0, y 1, eq_ix2 y⟩
  have hq : t.val * 2048 + p.val < 65536 := by have := point_lt t; have := p.isLt; omega
  obtain ⟨x0, x1, o0, o1, a1, b1, a2, b2, a3, b3, a4, b4, a5, b5, a6, b6, a7, b7, a8, b8⟩ := idx_facts t
  have hemb : ((cfg0.win 9).blk t).view.emb (ix2 p j) = ix2 (⟨t.val * 2048 + p.val, hq⟩ : Fin 65536) j := by
    funext a
    apply Fin.ext
    match a with
    | ⟨0, _⟩ => show win0_9.index t (0 : Fin 2) * 2048 + 1 * p.val = t.val * 2048 + p.val; omega
    | ⟨1, _⟩ => show win0_9.index t (1 : Fin 2) * 10 + 1 * j.val = j.val; omega
  show _ = result m c (((cfg0.win 9).blk t).view.emb (ix2 p j))
  rw [hemb]
  refine (canon9_eq (iblk m c 0 t) (iblk m c 1 t) (iblk m c 2 t) (iblk m c 3 t) (iblk m c 4 t) (iblk m c 5 t) (iblk m c 6 t) (iblk m c 7 t) (iblk m c 8 t) (ix2 p j)).trans ?_
  refine (block_apply (iblk m c 0 t) (iblk m c 1 t) (iblk m c 2 t) (iblk m c 3 t) (iblk m c 4 t) (iblk m c 5 t) (iblk m c 6 t) (iblk m c 7 t) (iblk m c 8 t) p j).trans ?_
  exact net_at_point m c t p ⟨t.val * 2048 + p.val, hq⟩ rfl j

/-! ## The whole array -/

/-- Every row of the result lies in some point's block: row r in point r / 2048's. -/
theorem covered (i : S65536x10.Idx) : ∃ t : Fin cfg0.N, (cfg0.win 9).flush t = true ∧ i ∈ ((cfg0.win 9).blk t).view.set := by
  have hi0 : (i 0).val < 65536 := (i 0).isLt
  have hi1 : (i 1).val < 10 := (i 1).isLt
  have hN : cfg0.N = 32 := N_0
  let t : Fin cfg0.N := ⟨(i 0).val / 2048, by rw [hN]; omega⟩
  obtain ⟨x0, x1, o0, o1, a1, b1, a2, b2, a3, b3, a4, b4, a5, b5, a6, b6, a7, b7, a8, b8⟩ := idx_facts t
  have ht : t.val = (i 0).val / 2048 := rfl
  refine ⟨t, flush0_9 t, ?_⟩
  show i ∈ ((View.whole main_v17).slice (win0_9.rect t)).set
  rw [View.set_slice_whole, Rect.mem_set_unit]
  intro a
  match a with
  | ⟨0, _⟩ => show win0_9.index t (0 : Fin 2) * 2048 ≤ (i 0).val ∧ (i 0).val < win0_9.index t (0 : Fin 2) * 2048 + 2048; omega
  | ⟨1, _⟩ => show win0_9.index t (1 : Fin 2) * 10 ≤ (i 1).val ∧ (i 1).val < win0_9.index t (1 : Fin 2) * 10 + 10; omega

/-- The result array after the run. -/
theorem final (c : Dev nD) : (dats m 0 c).arrAt 9 cfg0.N = result m c :=
  (dats m 0 c).arrAt_eq_of_cover 9 (result m c) (fun t _ => flushed_eq m c t) covered

/-- The run, read: the result array at `G` of the arguments, the arguments unchanged. -/
theorem run : θ_run defs (onTc (τ := τ) (main (F := Ideal))) ⟨m, fun _ => 0, ρ⟩ fun r => ∀ c : Dev nD,
      r.2.mem ((c : Thread nD τ).loc main_v17) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8) :=
  (θ_run defs _ _).mono (fun _ h c => ⟨(h c).1.trans (final m c), (h c).2⟩) (run_blocks m ρ)

end Cert.KernelIdeal.Whole

end
-- ==== Proof.RefValue.lean ====
/-
  The reference program's result is the four-layer net of the specification, row by row.

  The reference spells each sign table in its straight-through form  w + (sign w − w), which is  sign w  where the
  entries of w are real numbers; it transposes each weight table and multiplies by a plain product, lays each bias
  as a [1, N] row broadcast to all 65536 rows, and takes the maximum with a broadcast zero. Row r of each layer's
  result is the layer on row r of its input, so row r of the result is the net on row r of x.
-/
import proofs.«178437_j44057774522909_2_alg».proof.Proof.Gen.ReferenceIdeal.Read
import proofs.«178437_j44057774522909_2_alg».proof.Proof.LibDenseRows
import proofs.«178437_j44057774522909_2_alg».proof.Proof.Spec

noncomputable section

namespace Cert.ReferenceIdeal.RefValue

open Cert.ReferenceIdeal Cert.ReferenceIdeal.Gen Cert.ReferenceIdeal.Read
open Idealize.ShloMosaic Idealize.ShloMosaic.ValueIdx Cert.DenseRows Cert.Mlp

/-- The three products are plain: M × K by K × N. -/
theorem dotA_eq : dot_S65536x784_S784x512_S65536x512_1_0_0_1_n_n = DotDims.plain 65536 784 512 := rfl
theorem dotB_eq : dot_S65536x512_S512x512_S65536x512_1_0_0_1_n_n = DotDims.plain 65536 512 512 := rfl
theorem dotC_eq : dot_S65536x512_S512x10_S65536x10_1_0_0_1_n_n = DotDims.plain 65536 512 10 := rfl

/-! ## The sign tables, from their straight-through form -/

theorem w1_eq (x1 : FVec Ideal S512x784 .f32) (h : ∀ i, ∃ r : ℝ, x1 i = (r : EReal)) :
    val_main_v5 (F := Ideal) x1 = binarize x1 := by
  rw [← straight_through x1 h]
  unfold val_main_v5 val_main_v4 val_main_v3 val_main_v2 val_main_v1 val_main_v0 val_main_cst val_main_call0_v0
    val_main_call0_v1 val_main_cst_0 val_main_cst_1
  rw [select_signs]
  rfl

theorem w2_eq (x3 : FVec Ideal S512x512 .f32) (h : ∀ i, ∃ r : ℝ, x3 i = (r : EReal)) :
    val_main_v17 (F := Ideal) x3 = binarize x3 := by
  rw [← straight_through x3 h]
  unfold val_main_v17 val_main_v16 val_main_v15 val_main_v14 val_main_v13 val_main_v12 val_main_cst_2 val_main_call2_v0
    val_main_call2_v1 val_main_cst_3 val_main_cst_4
  rw [select_signs]
  rfl

theorem w3_eq (x5 : FVec Ideal S512x512 .f32) (h : ∀ i, ∃ r : ℝ, x5 i = (r : EReal)) :
    val_main_v29 (F := Ideal) x5 = binarize x5 := by
  rw [← straight_through x5 h]
  unfold val_main_v29 val_main_v28 val_main_v27 val_main_v26 val_main_v25 val_main_v24 val_main_cst_5 val_main_call4_v0
    val_main_call4_v1 val_main_cst_6 val_main_cst_7
  rw [select_signs]
  rfl

/-! ## The layers, row by row -/

theorem h1_row (x0 : FVec Ideal S65536x784 .f32) (x1 : FVec Ideal S512x784 .f32) (x2 : FVec Ideal S512 .f32) (r : Fin 65536) :
    row (val_main_v11 (F := Ideal) x0 x1 x2) r = relu (affine (val_main_v5 (F := Ideal) x1) (vec x2) (row x0 r)) := by
  unfold val_main_v11 val_main_v10 val_main_v7 val_main_v6 val_main_v9 val_main_v8 val_main_call1_v0 val_main_call1_cst
  rw [dotA_eq]
  exact host_hidden_row 65536 784 512 (by decide) none x0 (val_main_v5 (F := Ideal) x1) x2 _ _ _ _ r

theorem h2_row (x0 : FVec Ideal S65536x784 .f32) (x1 : FVec Ideal S512x784 .f32) (x2 : FVec Ideal S512 .f32)
    (x3 : FVec Ideal S512x512 .f32) (x4 : FVec Ideal S512 .f32) (r : Fin 65536) :
    row (val_main_v23 (F := Ideal) x0 x1 x2 x3 x4) r
      = relu (affine (val_main_v17 (F := Ideal) x3) (vec x4) (row (val_main_v11 (F := Ideal) x0 x1 x2) r)) := by
  unfold val_main_v23 val_main_v22 val_main_v19 val_main_v18 val_main_v21 val_main_v20 val_main_call3_v0 val_main_call3_cst
  rw [dotB_eq]
  exact host_hidden_row 65536 512 512 (by decide) none (val_main_v11 (F := Ideal) x0 x1 x2) (val_main_v17 (F := Ideal) x3) x4 _ _ _ _ r

theorem h3_row (x0 : FVec Ideal S65536x784 .f32) (x1 : FVec Ideal S512x784 .f32) (x2 : FVec Ideal S512 .f32)
    (x3 : FVec Ideal S512x512 .f32) (x4 : FVec Ideal S512 .f32) (x5 : FVec Ideal S512x512 .f32) (x6 : FVec Ideal S512 .f32) (r : Fin 65536) :
    row (val_main_v35 (F := Ideal) x0 x1 x2 x3 x4 x5 x6) r
      = relu (affine (val_main_v29 (F := Ideal) x5) (vec x6) (row (val_main_v23 (F := Ideal) x0 x1 x2 x3 x4) r)) := by
  unfold val_main_v35 val_main_v34 val_main_v31 val_main_v30 val_main_v33 val_main_v32 val_main_call5_v0 val_main_call5_cst
  rw [dotB_eq]
  exact host_hidden_row 65536 512 512 (by decide) none (val_main_v23 (F := Ideal) x0 x1 x2 x3 x4) (val_main_v29 (F := Ideal) x5) x6 _ _ _ _ r

theorem out_row (x0 : FVec Ideal S65536x784 .f32) (x1 : FVec Ideal S512x784 .f32) (x2 : FVec Ideal S512 .f32)
    (x3 : FVec Ideal S512x512 .f32) (x4 : FVec Ideal S512 .f32) (x5 : FVec Ideal S512x512 .f32) (x6 : FVec Ideal S512 .f32)
    (x7 : FVec Ideal S10x512 .f32) (x8 : FVec Ideal S10 .f32) (r : Fin 65536) :
    row (val_main_v40 (F := Ideal) x0 x1 x2 x3 x4 x5 x6 x7 x8) r
      = affine x7 (vec x8) (row (val_main_v35 (F := Ideal) x0 x1 x2 x3 x4 x5 x6) r) := by
  unfold val_main_v40 val_main_v37 val_main_v36 val_main_v39 val_main_v38
  rw [dotC_eq]
  exact host_affine_row 65536 512 10 (by decide) none (val_main_v35 (F := Ideal) x0 x1 x2 x3 x4 x5 x6) x7 x8 _ _ _ r

/-! ## The result -/

/-- The reference's result array is `G` of its arguments, when the three binarized weight tables hold real numbers. -/
theorem result_eq (x0 : FVec Ideal S65536x784 .f32) (x1 : FVec Ideal S512x784 .f32) (x2 : FVec Ideal S512 .f32)
    (x3 : FVec Ideal S512x512 .f32) (x4 : FVec Ideal S512 .f32) (x5 : FVec Ideal S512x512 .f32) (x6 : FVec Ideal S512 .f32)
    (x7 : FVec Ideal S10x512 .f32) (x8 : FVec Ideal S10 .f32)
    (h1 : ∀ i, ∃ r : ℝ, x1 i = (r : EReal)) (h3 : ∀ i, ∃ r : ℝ, x3 i = (r : EReal)) (h5 : ∀ i, ∃ r : ℝ, x5 i = (r : EReal)) :
    val_main_v40 (F := Ideal) x0 x1 x2 x3 x4 x5 x6 x7 x8 = G x0 x1 x2 x3 x4 x5 x6 x7 x8 := by
  funext i
  obtain ⟨r, j, rfl⟩ : ∃ (r : Fin 65536) (j : Fin 10), i = ix2 r j := ⟨i 0, i 1, eq_ix2 i⟩
  rw [G_apply]
  show row (val_main_v40 (F := Ideal) x0 x1 x2 x3 x4 x5 x6 x7 x8) r j = _
  rw [out_row, h3_row, h2_row, h1_row, w1_eq x1 h1, w2_eq x3 h3, w3_eq x5 h5]
  rfl

end Cert.ReferenceIdeal.RefValue

end
-- ==== Proof.Finite.lean ====
/-
  What the precondition gives: every entry of the three weight tables the programs binarize is a real number.

  The precondition is a conjunction, one conjunct per argument array, each saying |entry| < +∞ at every entry. The
  conjuncts of w1, w2 and w3 are taken out of it; at an entry, |x| < +∞ leaves x neither +∞ nor −∞.
-/
import proofs.«178437_j44057774522909_2_alg».proof.Pre_finite_inputs
import proofs.«178437_j44057774522909_2_alg».proof.Proof.Gen.Pre_finite_inputs
import Idealize.ShloMosaic.PureOps.Ideal.Laws
import Idealize.ShloMosaic.Lib.ValueIdx
import Idealize.ShloMosaic.Lib.ReduceAll

noncomputable section

namespace Cert.Finite

open Cert.Pre_finite_inputs Cert.Pre_finite_inputs.Gen
open Idealize.ShloMosaic Idealize.ShloMosaic.ValueIdx

instance : Subsingleton S_.Idx := ⟨fun a b => funext fun d => d.elim0⟩

/-- An extended real whose absolute value is below the f32 word of +∞ is a real number. -/
theorem real_of_abs_lt_inf (x : EReal)
    (h : FloatOps.cmpf (F := Ideal) .olt (FloatOps.hostAbsf (F := Ideal) (φ := .f32) x) (Ideal.ofBits .f32 0x7F800000#32) = 1#1) :
    ∃ r : ℝ, x = (r : EReal) := by
  have htop : Ideal.ofBits .f32 0x7F800000#32 = (⊤ : EReal) := by simp [Ideal.ofBits, Ideal.ieee]
  rw [htop] at h
  induction x using EReal.rec with
  | bot => exact absurd h (by simp [Ideal.cmp, FloatOps.cmpf, FloatOps.hostAbsf, FloatOps.absf])
  | coe r => exact ⟨r, rfl⟩
  | top => exact absurd h (by simp [Ideal.cmp, FloatOps.cmpf, FloatOps.hostAbsf, FloatOps.absf])

/-- Both conjuncts of a conjunction of truth words that is true are true. -/
theorem both_of_andi (x y : IVec S_ 1) (h : andi x y ix0 = 1#1) : x ix0 = 1#1 ∧ y ix0 = 1#1 := IntOp.andi_eq_one.mp h

/-- Under the precondition the entries of w1, w2 and w3 are real numbers. -/
theorem real_weights (a0 : FVec Ideal S65536x784 .f32) (a1 : FVec Ideal S512x784 .f32) (a2 : FVec Ideal S512 .f32)
    (a3 : FVec Ideal S512x512 .f32) (a4 : FVec Ideal S512 .f32) (a5 : FVec Ideal S512x512 .f32) (a6 : FVec Ideal S512 .f32)
    (a7 : FVec Ideal S10x512 .f32) (a8 : FVec Ideal S10 .f32)
    (h : fn (F := Ideal) a0 a1 a2 a3 a4 a5 a6 a7 a8 = fun _ => 1#1) :
    (∀ i, ∃ r : ℝ, a1 i = (r : EReal)) ∧ (∀ i, ∃ r : ℝ, a3 i = (r : EReal)) ∧ (∀ i, ∃ r : ℝ, a5 i = (r : EReal)) := by
  have h0 := congrFun h ix0
  dsimp only [fn, fn_part1, fn_part2] at h0
  obtain ⟨h1, -⟩ := both_of_andi _ _ h0
  obtain ⟨h2, -⟩ := both_of_andi _ _ h1
  obtain ⟨h3, -⟩ := both_of_andi _ _ h2
  obtain ⟨h4, k5⟩ := both_of_andi _ _ h3
  obtain ⟨h5, -⟩ := both_of_andi _ _ h4
  obtain ⟨h6, k3⟩ := both_of_andi _ _ h5
  obtain ⟨h7, -⟩ := both_of_andi _ _ h6
  obtain ⟨-, k1⟩ := both_of_andi _ _ h7
  exact ⟨fun i => real_of_abs_lt_inf _ (Host.reduce_andi_all _ _ _ _ ix0 k1 i),
    fun i => real_of_abs_lt_inf _ (Host.reduce_andi_all _ _ _ _ ix0 k3 i),
    fun i => real_of_abs_lt_inf _ (Host.reduce_andi_all _ _ _ _ ix0 k5 i)⟩

end Cert.Finite

end
-- ==== Proof.lean ====
/-
  A four-layer perceptron with binarized hidden weights, as one fused kernel over 32 blocks of 2048 rows, against the
  plain array program: equal results on the extended reals.

  Both programs compute, for each of the 65536 rows a of x,
      relu-layer(sign w1, b1) → relu-layer(sign w2, b2) → relu-layer(sign w3, b3) → layer(w4, b4),
  a layer being  j ↦ Σ_k a k · W (j, k) + b j  with W stored output-major. They differ in three ways, none of which
  changes a value on the extended reals:

  * the kernel multiplies bf16 copies of its operands and the reference f32 ones — a change of float format is the
    identity here;
  * the kernel contracts the last axis of both operands, the reference transposes W and multiplies plainly — the
    same sum over k;
  * the host part of the kernel's program writes the sign table  sign w  directly, the reference writes it in
    straight-through form  w + (sign w − w). This is the one place the precondition is used: for a real entry w the
    two are equal, at an infinite one they are not.

  A row of the result depends on that row of x alone, so the block the kernel writes at grid point t is rows
  2048·t … 2048·t + 2047 of the whole result, and the 32 blocks cover it.

  The three frames are the generated ones (the reference's is its generated run with the result dropped); the
  kernel's idealization rewrote nothing, so `preserves` is `True`.
-/
import proofs.«178437_j44057774522909_2_alg».proof.Defs
import proofs.«178437_j44057774522909_2_alg».proof.Proof.Gen.Kernel
import proofs.«178437_j44057774522909_2_alg».proof.Proof.Gen.Kernel.Frame
import proofs.«178437_j44057774522909_2_alg».proof.Proof.Gen.KernelIdeal
import proofs.«178437_j44057774522909_2_alg».proof.Proof.Gen.KernelIdeal.Frame
import proofs.«178437_j44057774522909_2_alg».proof.Proof.Gen.KernelIdeal.Value
import proofs.«178437_j44057774522909_2_alg».proof.Proof.Gen.ReferenceIdeal
import proofs.«178437_j44057774522909_2_alg».proof.Proof.Gen.ReferenceIdeal.Run
import proofs.«178437_j44057774522909_2_alg».proof.Proof.Gen.ReferenceIdeal.Read
import proofs.«178437_j44057774522909_2_alg».proof.Proof.Gen.Pre_finite_inputs
import proofs.«178437_j44057774522909_2_alg».proof.Proof.KernelValue
import proofs.«178437_j44057774522909_2_alg».proof.Proof.RefValue
import proofs.«178437_j44057774522909_2_alg».proof.Proof.Finite
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both runs end with the result array at `G` of the (agreeing) argument arrays: the kernel's by its blocks, the
    reference's by its layers read row by row, its sign tables being the kernel's because the weights are real. -/
theorem algebraic : Cert.algebraic_KernelIdeal_ReferenceIdeal := by
  intro m ρ m' ρ' hpre hagree
  refine ⟨fun c => Cert.KernelIdeal.Whole.result m c, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  obtain ⟨h1, h3, h5⟩ := Cert.Finite.real_weights _ _ _ _ _ _ _ _ _ (hpre c)
  obtain ⟨e0, e1, e2, e3, e4, e5, e6, e7, e8⟩ := hagree c
  refine (Cert.ReferenceIdeal.Read.val_main_v40_eq (F := Ideal) _ _ _ _ _ _ _ _ _).trans ?_
  rw [e0, e1, e2, e3, e4, e5, e6, e7, e8]
  exact Cert.ReferenceIdeal.RefValue.result_eq _ _ _ _ _ _ _ _ _ h1 h3 h5

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
